-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S160000 : Shape := ⟨1, ![160000]⟩
abbrev S512x512 : Shape := ⟨2, ![512, 512]⟩
abbrev S512 : Shape := ⟨1, ![512]⟩
abbrev S1025x64 : Shape := ⟨2, ![1025, 64]⟩
abbrev S64 : Shape := ⟨1, ![64]⟩
abbrev S64x1 : Shape := ⟨2, ![64, 1]⟩
abbrev S1 : Shape := ⟨1, ![1]⟩
abbrev S2x160000 : Shape := ⟨2, ![2, 160000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1025x64 : S_.BroadcastsInDim S1025x64 (![] : Fin 0 → Fin S1025x64.rank)
  reducesTo_S1025x64_S_d0_1 : S1025x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S512 .f32) (main_arg8 : FVec F S512x512 .f32) (main_arg9 : FVec F S1025x64 .f32) (main_arg10 : FVec F S64 .f32) (main_arg11 : FVec F S64x1 .f32) (main_arg12 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S1025x64 .f32 := Host.absf main_arg9
  let main_cst_16 : FVec F S_ .f32 := constant S_ .f32 0x7F800000#32
  let main_v45 : FVec F S1025x64 .f32 := broadcastInDim S1025x64 ![] bcast_S_S1025x64 main_cst_16
  let main_v46 : IVec S1025x64 1 := cmpf .olt main_v44 main_v45
  let main_c_17 : IVec S_ 1 := constantI S_ 1 1#1
  let main_v47 : IVec S_ 1 := (fun x v => Host.reduce IntOp.andi x v reducesTo_S1025x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512x512 .f32) (main_arg9 : FVec F S1025x64 .f32) (main_arg10 : FVec F S64 .f32) (main_arg11 : FVec F S64x1 .f32) (main_arg12 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x512 .f32) (main_arg1 : FVec F S160000 .f32) (main_arg2 : FVec F S160000 .f32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S1025x64 .f32) (main_arg10 : FVec F S64 .f32) (main_arg11 : FVec F S64x1 .f32) (main_arg12 : FVec F S1 .f32) (main_arg13 : IVec S2x160000 32) (main_arg14 : IVec S2x160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000 .f32 := Host.absf main_arg1
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S160000 .f32 := Host.absf main_arg2
  let main_cst_2 : FVec F S_ .f32 := constant S_ .f32 0x7F800000#32
  let main_v10 : FVec F S160000 .f32 := broadcastInDim S160000 ![] bcast_S_S160000 main_cst_2
  let main_v11 : IVec S160000 1 := cmpf .olt main_v9 main_v10
  let main_c_3 : IVec S_ 1 := constantI S_ 1 1#1
  let main_v12 : IVec S_ 1 := (fun x v => Host.reduce IntOp.andi x v reducesTo_S160000_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S10000x512 : Shape := ⟨2, ![10000, 512]⟩
abbrev S160000 : Shape := ⟨1, ![160000]⟩
abbrev S512x512 : Shape := ⟨2, ![512, 512]⟩
abbrev S512 : Shape := ⟨1, ![512]⟩
abbrev S1025x64 : Shape := ⟨2, ![1025, 64]⟩
abbrev S64 : Shape := ⟨1, ![64]⟩
abbrev S64x1 : Shape := ⟨2, ![64, 1]⟩
abbrev S1 : Shape := ⟨1, ![1]⟩
abbrev S2x160000 : Shape := ⟨2, ![2, 160000]⟩
abbrev S1x160000 : Shape := ⟨2, ![1, 160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x512 : Shape := ⟨2, ![1, 512]⟩
abbrev S1000x512 : Shape := ⟨2, ![1000, 512]⟩
abbrev S512x64 : Shape := ⟨2, ![512, 64]⟩
abbrev S1x64 : Shape := ⟨2, ![1, 64]⟩
abbrev S10000x64 : Shape := ⟨2, ![10000, 64]⟩
abbrev S1000x64 : Shape := ⟨2, ![1000, 64]⟩
abbrev S160000x64 : Shape := ⟨2, ![160000, 64]⟩
abbrev S1x1 : Shape := ⟨2, ![1, 1]⟩
abbrev S16000x64 : Shape := ⟨2, ![16000, 64]⟩
abbrev S16000x1 : Shape := ⟨2, ![16000, 1]⟩
abbrev S16000 : Shape := ⟨1, ![16000]⟩

abbrev nBuf : Space → Nat
  | .hbm => 117
  | .vmem => 34
  | .smem => 0
  | _ => 0

abbrev bufTy : (tb : Table) → Fin (tcTables nBuf tb) → BufTy
  | .hbm, ⟨0, _⟩ => ⟨S10000x512, .f32⟩
  | .hbm, ⟨1, _⟩ => ⟨S160000, .f32⟩
  | .hbm, ⟨2, _⟩ => ⟨S160000, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S1025x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S2x160000, .i32⟩
  | .hbm, ⟨14, _⟩ => ⟨S2x160000, .i32⟩
  | .hbm, ⟨15, _⟩ => ⟨S1x160000, .i32⟩
  | .hbm, ⟨16, _⟩ => ⟨S160000, .i32⟩
  | .hbm, ⟨17, _⟩ => ⟨S1x160000, .i32⟩
  | .hbm, ⟨18, _⟩ => ⟨S160000, .i32⟩
  | .hbm, ⟨19, _⟩ => ⟨S10000x512, .bf16⟩
  | .hbm, ⟨20, _⟩ => ⟨S_, .i32⟩
  | .hbm, ⟨21, _⟩ => ⟨S160000, .i32⟩
  | .hbm, ⟨22, _⟩ => ⟨S160000, .i1⟩
  | .hbm, ⟨23, _⟩ => ⟨S_, .i32⟩
  | .hbm, ⟨24, _⟩ => ⟨S160000, .i32⟩
  | .hbm, ⟨25, _⟩ => ⟨S160000, .i32⟩
  | .hbm, ⟨26, _⟩ => ⟨S160000, .i32⟩
  | .hbm, ⟨27, _⟩ => ⟨S160000x1, .i32⟩
  | .hbm, ⟨28, _⟩ => ⟨S160000x512, .bf16⟩
  | .hbm, ⟨29, _⟩ => ⟨S160000x512, .f32⟩
  | .hbm, ⟨30, _⟩ => ⟨S160000x1, .f32⟩
  | .hbm, ⟨31, _⟩ => ⟨S160000x512, .f32⟩
  | .hbm, ⟨32, _⟩ => ⟨S160000x512, .f32⟩
  | .hbm, ⟨33, _⟩ => ⟨S_, .f32⟩
  | .hbm, ⟨34, _⟩ => ⟨S10000x512, .f32⟩
  | .hbm, ⟨35, _⟩ => ⟨S160000x1, .i32⟩
  | .hbm, ⟨36, _⟩ => ⟨S10000x512, .f32⟩
  | .hbm, ⟨37, _⟩ => ⟨S_, .f32⟩
  | .hbm, ⟨38, _⟩ => ⟨S160000, .f32⟩
  | .hbm, ⟨39, _⟩ => ⟨S_, .f32⟩
  | .hbm, ⟨40, _⟩ => ⟨S10000, .f32⟩
  | .hbm, ⟨41, _⟩ => ⟨S160000x1, .i32⟩
  | .hbm, ⟨42, _⟩ => ⟨S10000, .f32⟩
  | .hbm, ⟨43, _⟩ => ⟨S_, .f32⟩
  | .hbm, ⟨44, _⟩ => ⟨S10000, .f32⟩
  | .hbm, ⟨45, _⟩ => ⟨S10000, .f32⟩
  | .hbm, ⟨46, _⟩ => ⟨S10000x1, .f32⟩
  | .hbm, ⟨47, _⟩ => ⟨S10000x512, .f32⟩
  | .hbm, ⟨48, _⟩ => ⟨S10000x512, .f32⟩
  | .hbm, ⟨49, _⟩ => ⟨S10000x512, .bf16⟩
  | .hbm, ⟨50, _⟩ => ⟨S10000x512, .bf16⟩
  | .hbm, ⟨51, _⟩ => ⟨S1x512, .f32⟩
  | .hbm, ⟨52, _⟩ => ⟨S10000x512, .bf16⟩
  | .hbm, ⟨53, _⟩ => ⟨S_, .i32⟩
  | .hbm, ⟨54, _⟩ => ⟨S160000, .i32⟩
  | .hbm, ⟨55, _⟩ => ⟨S160000, .i1⟩
  | .hbm, ⟨56, _⟩ => ⟨S_, .i32⟩
  | .hbm, ⟨57, _⟩ => ⟨S160000, .i32⟩
  | .hbm, ⟨58, _⟩ => ⟨S160000, .i32⟩
  | .hbm, ⟨59, _⟩ => ⟨S160000, .i32⟩
  | .hbm, ⟨60, _⟩ => ⟨S160000x1, .i32⟩
  | .hbm, ⟨61, _⟩ => ⟨S160000x512, .bf16⟩
  | .hbm, ⟨62, _⟩ => ⟨S160000x512, .f32⟩
  | .hbm, ⟨63, _⟩ => ⟨S160000x1, .f32⟩
  | .hbm, ⟨64, _⟩ => ⟨S160000x512, .f32⟩
  | .hbm, ⟨65, _⟩ => ⟨S160000x512, .f32⟩
  | .hbm, ⟨66, _⟩ => ⟨S_, .f32⟩
  | .hbm, ⟨67, _⟩ => ⟨S10000x512, .f32⟩
  | .hbm, ⟨68, _⟩ => ⟨S160000x1, .i32⟩
  | .hbm, ⟨69, _⟩ => ⟨S10000x512, .f32⟩
  | .hbm, ⟨70, _⟩ => ⟨S_, .f32⟩
  | .hbm, ⟨71, _⟩ => ⟨S160000, .f32⟩
  | .hbm, ⟨72, _⟩ => ⟨S_, .f32⟩
  | .hbm, ⟨73, _⟩ => ⟨S10000, .f32⟩
  | .hbm, ⟨74, _⟩ => ⟨S160000x1, .i32⟩
  | .hbm, ⟨75, _⟩ => ⟨S10000, .f32⟩
  | .hbm, ⟨76, _⟩ => ⟨S_, .f32⟩
  | .hbm, ⟨77, _⟩ => ⟨S10000, .f32⟩
  | .hbm, ⟨78, _⟩ => ⟨S10000, .f32⟩
  | .hbm, ⟨79, _⟩ => ⟨S10000x1, .f32⟩
  | .hbm, ⟨80, _⟩ => ⟨S10000x512, .f32⟩
  | .hbm, ⟨81, _⟩ => ⟨S10000x512, .f32⟩
  | .hbm, ⟨82, _⟩ => ⟨S512x64, .f32⟩
  | .hbm, ⟨83, _⟩ => ⟨S512x64, .f32⟩
  | .hbm, ⟨84, _⟩ => ⟨S1x64, .f32⟩
  | .hbm, ⟨85, _⟩ => ⟨S10000x512, .bf16⟩
  | .hbm, ⟨86, _⟩ => ⟨S1x512, .f32⟩
  | .hbm, ⟨87, _⟩ => ⟨S10000x64, .bf16⟩
  | .hbm, ⟨88, _⟩ => ⟨S10000x64, .bf16⟩
  | .hbm, ⟨89, _⟩ => ⟨S1x160000, .i32⟩
  | .hbm, ⟨90, _⟩ => ⟨S160000, .i32⟩
  | .hbm, ⟨91, _⟩ => ⟨S_, .i32⟩
  | .hbm, ⟨92, _⟩ => ⟨S160000, .i32⟩
  | .hbm, ⟨93, _⟩ => ⟨S160000, .i1⟩
  | .hbm, ⟨94, _⟩ => ⟨S_, .i32⟩
  | .hbm, ⟨95, _⟩ => ⟨S160000, .i32⟩
  | .hbm, ⟨96, _⟩ => ⟨S160000, .i32⟩
  | .hbm, ⟨97, _⟩ => ⟨S160000, .i32⟩
  | .hbm, ⟨98, _⟩ => ⟨S160000x1, .i32⟩
  | .hbm, ⟨99, _⟩ => ⟨S160000x64, .bf16⟩
  | .hbm, ⟨100, _⟩ => ⟨S1x160000, .i32⟩
  | .hbm, ⟨101, _⟩ => ⟨S160000, .i32⟩
  | .hbm, ⟨102, _⟩ => ⟨S_, .i32⟩
  | .hbm, ⟨103, _⟩ => ⟨S160000, .i32⟩
  | .hbm, ⟨104, _⟩ => ⟨S160000, .i1⟩
  | .hbm, ⟨105, _⟩ => ⟨S_, .i32⟩
  | .hbm, ⟨106, _⟩ => ⟨S160000, .i32⟩
  | .hbm, ⟨107, _⟩ => ⟨S160000, .i32⟩
  | .hbm, ⟨108, _⟩ => ⟨S160000, .i32⟩
  | .hbm, ⟨109, _⟩ => ⟨S160000x1, .i32⟩
  | .hbm, ⟨110, _⟩ => ⟨S160000x64, .bf16⟩
  | .hbm, ⟨111, _⟩ => ⟨S160000x1, .f32⟩
  | .hbm, ⟨112, _⟩ => ⟨S1x64, .f32⟩
  | .hbm, ⟨113, _⟩ => ⟨S1x64, .f32⟩
  | .hbm, ⟨114, _⟩ => ⟨S1x1, .f32⟩
  | .hbm, ⟨115, _⟩ => ⟨S160000x1, .f32⟩
  | .hbm, ⟨116, _⟩ => ⟨S160000, .f32⟩
  | .local _ .vmem, ⟨0, _⟩ => ⟨S1000x512, .bf16⟩
  | .local _ .vmem, ⟨1, _⟩ => ⟨S1000x512, .bf16⟩
  | .local _ .vmem, ⟨2, _⟩ => ⟨S1000x512, .bf16⟩
  | .local _ .vmem, ⟨3, _⟩ => ⟨S1000x512, .bf16⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1000x512, .bf16⟩
  | .local _ .vmem, ⟨8, _⟩ => ⟨S1000x512, .bf16⟩
  | .local _ .vmem, ⟨9, _⟩ => ⟨S1000x512, .bf16⟩
  | .local _ .vmem, ⟨10, _⟩ => ⟨S1000x512, .bf16⟩
  | .local _ .vmem, ⟨11, _⟩ => ⟨S1000x512, .bf16⟩
  | .local _ .vmem, ⟨12, _⟩ => ⟨S1000x512, .bf16⟩
  | .local _ .vmem, ⟨13, _⟩ => ⟨S512x512, .f32⟩
  | .local _ .vmem, ⟨14, _⟩ => ⟨S1x512, .f32⟩
  | .local _ .vmem, ⟨15, _⟩ => ⟨S512x512, .f32⟩
  | .local _ .vmem, ⟨16, _⟩ => ⟨S512x64, .f32⟩
  | .local _ .vmem, ⟨17, _⟩ => ⟨S512x64, .f32⟩
  | .local _ .vmem, ⟨18, _⟩ => ⟨S1000x64, .bf16⟩
  | .local _ .vmem, ⟨19, _⟩ => ⟨S1000x64, .bf16⟩
  | .local _ .vmem, ⟨20, _⟩ => ⟨S1000x64, .bf16⟩
  | .local _ .vmem, ⟨21, _⟩ => ⟨S1000x64, .bf16⟩
  | .local _ .vmem, ⟨22, _⟩ => ⟨S16000x64, .bf16⟩
  | .local _ .vmem, ⟨23, _⟩ => ⟨S16000x64, .bf16⟩
  | .local _ .vmem, ⟨24, _⟩ => ⟨S16000x64, .bf16⟩
  | .local _ .vmem, ⟨25, _⟩ => ⟨S16000x64, .bf16⟩
  | .local _ .vmem, ⟨26, _⟩ => ⟨S16000x1, .f32⟩
  | .local _ .vmem, ⟨27, _⟩ => ⟨S16000x1, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x1, .f32⟩
  | .local _ .vmem, ⟨32, _⟩ => ⟨S16000x1, .f32⟩
  | .local _ .vmem, ⟨33, _⟩ => ⟨S16000x1, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60_0 : Ref sig .tc := ⟨.hbm, 87, rfl⟩
abbrev main_v60_1 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_12 : Ref sig .tc := ⟨.hbm, 102, rfl⟩
abbrev main_v72 : Ref sig .tc := ⟨.hbm, 103, rfl⟩
abbrev main_v73 : Ref sig .tc := ⟨.hbm, 104, rfl⟩
abbrev main_c_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1000x64 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S16000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bitsLt_bf16_f32 : FTy.bits .bf16 < FTy.bits .f32
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  packedbf16_S1000x512_S1000x512_0_0 : (Rect.unit (s := S1000x512) ![0, 0] S1000x512.size inb_S1000x512_S1000x512_0_0).PackedRows (EltTy.packing .bf16)
  slices_S1025x64_S512x64_0_0 : S1025x64.Slices ![0, 0] S512x64
  slices_S1025x64_S512x64_512_0 : S1025x64.Slices ![512, 0] S512x64
  slices_S1025x64_S1x64_1024_0 : S1025x64.Slices ![1024, 0] S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1000x64_S1000x64_0_0 : ∀ a, (![0, 0] : Fin 2 → Nat) a + S1000x64.size a ≤ S1000x64.size a
  h_S1000x64 : 0 < S1000x64.numel
  packedbf16_S1000x64_S1000x64_0_0 : (Rect.unit (s := S1000x64) ![0, 0] S1000x64.size inb_S1000x64_S1000x64_0_0).PackedRows (EltTy.packing .bf16)
  shapeCasts_S160000_S160000x1 : S160000.ShapeCasts S160000x1
  shapeCasts_S64_S1x64 : S64.ShapeCasts S1x64
  shapeCasts_S64x1_S1x64 : S64x1.ShapeCasts S1x64
  shapeCasts_S1_S1x1 : S1.ShapeCasts S1x1
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S16000x1_S16000x64 : S16000x1.Broadcasts S16000x64
  broadcasts_S1x64_S16000x64 : S1x64.Broadcasts S16000x64
  reduces_S16000x64_S16000 : S16000x64.Reduces [1] S16000
  shapeCasts_S16000_S16000x1 : S16000.ShapeCasts S16000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16000x1 : S1x1.Broadcasts S16000x1
  shapeCasts_S160000x1_S160000 : S160000x1.ShapeCasts S160000
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S1000x512_S512x512_S1000x512_1_0_0_1_n_n_wf : DotDims.WF S1000x512 S512x512 S1000x512 [1] [0] [0] [1] [] []
  dot_S1000x512_S512x64_S1000x64_1_0_0_1_n_n_wf : DotDims.WF S1000x512 S512x64 S1000x64 [1] [0] [0] [1] [] []
  gather_S10000x64_S160000x1_S160000x64_1_0_n_n_0_1_164_wf : GatherDims.WF S10000x64 S160000x1 S160000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .bf16 = 32 ∨ (Rect.block (s := S10000x512) S1000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .bf16 = 32 ∨ (Rect.block (s := S10000x512) S1000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S10000x512.size a
  hwx0_5 : ∀ i : grid0.Coords, EltTy.bits .bf16 = 32 ∨ (Rect.block (s := S10000x512) S1000x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .bf16 = 32 ∨ (Rect.block (s := S10000x512) S1000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S10000x512.size a
  hwx1_1 : ∀ i : grid1.Coords, EltTy.bits .bf16 = 32 ∨ (Rect.block (s := S10000x512) S1000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x64.size a ≤ S512x64.size a
  hwx1_5 : ∀ i : grid1.Coords, EltTy.bits .f32 = 32 ∨ (Rect.block (s := S512x64) S512x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x64.size a ≤ S512x64.size a
  hwx1_6 : ∀ i : grid1.Coords, EltTy.bits .f32 = 32 ∨ (Rect.block (s := S512x64) S512x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x64.size a ≤ S10000x64.size a
  hwx1_7 : ∀ i : grid1.Coords, EltTy.bits .bf16 = 32 ∨ (Rect.block (s := S10000x64) S1000x64.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x64.size a ≤ S10000x64.size a
  hwx1_8 : ∀ i : grid1.Coords, EltTy.bits .bf16 = 32 ∨ (Rect.block (s := S10000x64) S1000x64.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S160000x64.size a
  hwx2_0 : ∀ i : grid2.Coords, EltTy.bits .bf16 = 32 ∨ (Rect.block (s := S160000x64) S16000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x64.size a ≤ S160000x64.size a
  hwx2_1 : ∀ i : grid2.Coords, EltTy.bits .bf16 = 32 ∨ (Rect.block (s := S160000x64) S16000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x1.size a ≤ S160000x1.size a
  hwx2_2 : ∀ i : grid2.Coords, EltTy.bits .f32 = 32 ∨ (Rect.block (s := S160000x1) S16000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S16000x1.size a ≤ S160000x1.size a
  hwx2_7 : ∀ i : grid2.Coords, EltTy.bits .f32 = 32 ∨ (Rect.block (s := S160000x1) S16000x1.size (cc2_transform_7 i) (hinb2_7 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x64_S1000x64_1_0_0_1_n_n : DotDims S1000x512 S512x64 S1000x64 where
  lhsContracting := [1]
  rhsContracting := [0]
  lhsNonContracting := [0]
  rhsNonContracting := [1]
  lhsBatch := []
  rhsBatch := []
  wf := dot_S1000x512_S512x64_S1000x64_1_0_0_1_n_n_wf
def gather_S10000x64_S160000x1_S160000x64_1_0_n_n_0_1_164 : GatherDims S10000x64 S160000x1 S160000x64 where
  offsetDims := [1]
  collapsedSliceDims := [0]
  operandBatchingDims := []
  startIndicesBatchingDims := []
  startIndexMap := [0]
  indexVectorDim := 1
  sliceSizes := ![1, 64]
  wf := gather_S10000x64_S160000x1_S160000x64_1_0_n_n_0_1_164_wf

abbrev win0_0 : Pipeline.Window sig grid0 :=
  Pipeline.Window.ofSpec (Memref.whole main_v28) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v58) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S512x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S512x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v60_0) S1000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v60_1) S1000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v69) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S16000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v79) S16000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v82) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v83) S16000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x512 : Shape := ⟨2, ![10000, 512]⟩
abbrev S160000 : Shape := ⟨1, ![160000]⟩
abbrev S512x512 : Shape := ⟨2, ![512, 512]⟩
abbrev S512 : Shape := ⟨1, ![512]⟩
abbrev S1025x64 : Shape := ⟨2, ![1025, 64]⟩
abbrev S64 : Shape := ⟨1, ![64]⟩
abbrev S64x1 : Shape := ⟨2, ![64, 1]⟩
abbrev S1 : Shape := ⟨1, ![1]⟩
abbrev S2x160000 : Shape := ⟨2, ![2, 160000]⟩
abbrev S1x160000 : Shape := ⟨2, ![1, 160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x512 : Shape := ⟨2, ![1, 512]⟩
abbrev S160000x1025 : Shape := ⟨2, ![160000, 1025]⟩
abbrev S160000x64 : Shape := ⟨2, ![160000, 64]⟩
abbrev S1x64 : Shape := ⟨2, ![1, 64]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S160000, .f32⟩
  | .hbm, ⟨2, _⟩ => ⟨S160000, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S1025x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S2x160000, .i32⟩
  | .hbm, ⟨14, _⟩ => ⟨S2x160000, .i32⟩
  | .hbm, ⟨15, _⟩ => ⟨S1x160000, .i32⟩
  | .hbm, ⟨16, _⟩ => ⟨S160000, .i32⟩
  | .hbm, ⟨17, _⟩ => ⟨S1x160000, .i32⟩
  | .hbm, ⟨18, _⟩ => ⟨S160000, .i32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S160000x512, .f32⟩
  | .hbm, ⟨28, _⟩ => ⟨S160000x1, .f32⟩
  | .hbm, ⟨29, _⟩ => ⟨S160000x512, .f32⟩
  | .hbm, ⟨30, _⟩ => ⟨S160000x512, .f32⟩
  | .hbm, ⟨31, _⟩ => ⟨S_, .f32⟩
  | .hbm, ⟨32, _⟩ => ⟨S10000x512, .f32⟩
  | .hbm, ⟨33, _⟩ => ⟨S160000x1, .i32⟩
  | .hbm, ⟨34, _⟩ => ⟨S10000x512, .f32⟩
  | .hbm, ⟨35, _⟩ => ⟨S_, .f32⟩
  | .hbm, ⟨36, _⟩ => ⟨S160000, .f32⟩
  | .hbm, ⟨37, _⟩ => ⟨S_, .f32⟩
  | .hbm, ⟨38, _⟩ => ⟨S10000, .f32⟩
  | .hbm, ⟨39, _⟩ => ⟨S160000x1, .i32⟩
  | .hbm, ⟨40, _⟩ => ⟨S10000, .f32⟩
  | .hbm, ⟨41, _⟩ => ⟨S_, .f32⟩
  | .hbm, ⟨42, _⟩ => ⟨S10000, .f32⟩
  | .hbm, ⟨43, _⟩ => ⟨S10000, .f32⟩
  | .hbm, ⟨44, _⟩ => ⟨S10000x1, .f32⟩
  | .hbm, ⟨45, _⟩ => ⟨S10000x512, .f32⟩
  | .hbm, ⟨46, _⟩ => ⟨S10000x512, .f32⟩
  | .hbm, ⟨47, _⟩ => ⟨S10000x512, .f32⟩
  | .hbm, ⟨48, _⟩ => ⟨S1x512, .f32⟩
  | .hbm, ⟨49, _⟩ => ⟨S10000x512, .f32⟩
  | .hbm, ⟨50, _⟩ => ⟨S10000x512, .f32⟩
  | .hbm, ⟨51, _⟩ => ⟨S10000x512, .f32⟩
  | .hbm, ⟨52, _⟩ => ⟨S10000x512, .f32⟩
  | .hbm, ⟨53, _⟩ => ⟨S_, .f32⟩
  | .hbm, ⟨54, _⟩ => ⟨S10000x512, .f32⟩
  | .hbm, ⟨55, _⟩ => ⟨S10000x512, .f32⟩
  | .hbm, ⟨56, _⟩ => ⟨S_, .i32⟩
  | .hbm, ⟨57, _⟩ => ⟨S160000, .i32⟩
  | .hbm, ⟨58, _⟩ => ⟨S160000, .i1⟩
  | .hbm, ⟨59, _⟩ => ⟨S_, .i32⟩
  | .hbm, ⟨60, _⟩ => ⟨S160000, .i32⟩
  | .hbm, ⟨61, _⟩ => ⟨S160000, .i32⟩
  | .hbm, ⟨62, _⟩ => ⟨S160000, .i32⟩
  | .hbm, ⟨63, _⟩ => ⟨S160000x1, .i32⟩
  | .hbm, ⟨64, _⟩ => ⟨S160000x512, .f32⟩
  | .hbm, ⟨65, _⟩ => ⟨S160000x1, .f32⟩
  | .hbm, ⟨66, _⟩ => ⟨S160000x512, .f32⟩
  | .hbm, ⟨67, _⟩ => ⟨S160000x512, .f32⟩
  | .hbm, ⟨68, _⟩ => ⟨S_, .f32⟩
  | .hbm, ⟨69, _⟩ => ⟨S10000x512, .f32⟩
  | .hbm, ⟨70, _⟩ => ⟨S160000x1, .i32⟩
  | .hbm, ⟨71, _⟩ => ⟨S10000x512, .f32⟩
  | .hbm, ⟨72, _⟩ => ⟨S_, .f32⟩
  | .hbm, ⟨73, _⟩ => ⟨S160000, .f32⟩
  | .hbm, ⟨74, _⟩ => ⟨S_, .f32⟩
  | .hbm, ⟨75, _⟩ => ⟨S10000, .f32⟩
  | .hbm, ⟨76, _⟩ => ⟨S160000x1, .i32⟩
  | .hbm, ⟨77, _⟩ => ⟨S10000, .f32⟩
  | .hbm, ⟨78, _⟩ => ⟨S_, .f32⟩
  | .hbm, ⟨79, _⟩ => ⟨S10000, .f32⟩
  | .hbm, ⟨80, _⟩ => ⟨S10000, .f32⟩
  | .hbm, ⟨81, _⟩ => ⟨S10000x1, .f32⟩
  | .hbm, ⟨82, _⟩ => ⟨S10000x512, .f32⟩
  | .hbm, ⟨83, _⟩ => ⟨S10000x512, .f32⟩
  | .hbm, ⟨84, _⟩ => ⟨S10000x512, .f32⟩
  | .hbm, ⟨85, _⟩ => ⟨S1x512, .f32⟩
  | .hbm, ⟨86, _⟩ => ⟨S10000x512, .f32⟩
  | .hbm, ⟨87, _⟩ => ⟨S10000x512, .f32⟩
  | .hbm, ⟨88, _⟩ => ⟨S10000x512, .f32⟩
  | .hbm, ⟨89, _⟩ => ⟨S10000x512, .f32⟩
  | .hbm, ⟨90, _⟩ => ⟨S1x160000, .i32⟩
  | .hbm, ⟨91, _⟩ => ⟨S160000, .i32⟩
  | .hbm, ⟨92, _⟩ => ⟨S_, .i32⟩
  | .hbm, ⟨93, _⟩ => ⟨S160000, .i32⟩
  | .hbm, ⟨94, _⟩ => ⟨S160000, .i1⟩
  | .hbm, ⟨95, _⟩ => ⟨S_, .i32⟩
  | .hbm, ⟨96, _⟩ => ⟨S160000, .i32⟩
  | .hbm, ⟨97, _⟩ => ⟨S160000, .i32⟩
  | .hbm, ⟨98, _⟩ => ⟨S160000, .i32⟩
  | .hbm, ⟨99, _⟩ => ⟨S160000x1, .i32⟩
  | .hbm, ⟨100, _⟩ => ⟨S160000x512, .f32⟩
  | .hbm, ⟨101, _⟩ => ⟨S1x160000, .i32⟩
  | .hbm, ⟨102, _⟩ => ⟨S160000, .i32⟩
  | .hbm, ⟨103, _⟩ => ⟨S_, .i32⟩
  | .hbm, ⟨104, _⟩ => ⟨S160000, .i32⟩
  | .hbm, ⟨105, _⟩ => ⟨S160000, .i1⟩
  | .hbm, ⟨106, _⟩ => ⟨S_, .i32⟩
  | .hbm, ⟨107, _⟩ => ⟨S160000, .i32⟩
  | .hbm, ⟨108, _⟩ => ⟨S160000, .i32⟩
  | .hbm, ⟨109, _⟩ => ⟨S160000, .i32⟩
  | .hbm, ⟨110, _⟩ => ⟨S160000x1, .i32⟩
  | .hbm, ⟨111, _⟩ => ⟨S160000x512, .f32⟩
  | .hbm, ⟨112, _⟩ => ⟨S160000x1, .f32⟩
  | .hbm, ⟨113, _⟩ => ⟨S160000x1025, .f32⟩
  | .hbm, ⟨114, _⟩ => ⟨S160000x64, .f32⟩
  | .hbm, ⟨115, _⟩ => ⟨S1x64, .f32⟩
  | .hbm, ⟨116, _⟩ => ⟨S160000x64, .f32⟩
  | .hbm, ⟨117, _⟩ => ⟨S160000x64, .f32⟩
  | .hbm, ⟨118, _⟩ => ⟨S_, .f32⟩
  | .hbm, ⟨119, _⟩ => ⟨S160000x64, .f32⟩
  | .hbm, ⟨120, _⟩ => ⟨S160000x64, .f32⟩
  | .hbm, ⟨121, _⟩ => ⟨S160000x1, .f32⟩
  | .hbm, ⟨122, _⟩ => ⟨S1x1, .f32⟩
  | .hbm, ⟨123, _⟩ => ⟨S160000x1, .f32⟩
  | .hbm, ⟨124, _⟩ => ⟨S160000x1, .f32⟩
  | .hbm, ⟨125, _⟩ => ⟨S160000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_10 : Ref sig .tc := ⟨.hbm, 92, rfl⟩
abbrev main_v63 : Ref sig .tc := ⟨.hbm, 93, rfl⟩
abbrev main_v64 : Ref sig .tc := ⟨.hbm, 94, rfl⟩
abbrev main_c_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_12 : Ref sig .tc := ⟨.hbm, 103, rfl⟩
abbrev main_v72 : Ref sig .tc := ⟨.hbm, 104, rfl⟩
abbrev main_v73 : Ref sig .tc := ⟨.hbm, 105, rfl⟩
abbrev main_c_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call1_cst : Ref sig .tc := ⟨.hbm, 118, rfl⟩
abbrev main_call1_v0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  concatenates_S160000x512_S160000x512_S160000x1_S160000x1025_d1 : Shape.Concatenates [S160000x512, S160000x512, S160000x1] S160000x1025 1
  bcast_S64_S1x64_1 : S64.BroadcastsInDim S1x64 (![1] : Fin 1 → Fin S1x64.rank)
  bcast_S1x64_S160000x64_0_1 : S1x64.BroadcastsInDim S160000x64 (![0, 1] : Fin 2 → Fin S160000x64.rank)
  bcast_S_S160000x64 : S_.BroadcastsInDim S160000x64 (![] : Fin 0 → Fin S160000x64.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  shapeCasts_S160000x1_S160000 : S160000x1.ShapeCasts S160000
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x512_S10000x512_1_0_0_1_n_n_wf : DotDims.WF S10000x512 S512x512 S10000x512 [1] [0] [0] [1] [] []
  dot_S160000x1025_S1025x64_S160000x64_1_0_0_1_n_n_wf : DotDims.WF S160000x1025 S1025x64 S160000x64 [1] [0] [0] [1] [] []
  dot_S160000x64_S64x1_S160000x1_1_0_0_1_n_n_wf : DotDims.WF S160000x64 S64x1 S160000x1 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S160000x1025_S1025x64_S160000x64_1_0_0_1_n_n : DotDims S160000x1025 S1025x64 S160000x64 where
  lhsContracting := [1]
  rhsContracting := [0]
  lhsNonContracting := [0]
  rhsNonContracting := [1]
  lhsBatch := []
  rhsBatch := []
  wf := dot_S160000x1025_S1025x64_S160000x64_1_0_0_1_n_n_wf
def dot_S160000x64_S64x1_S160000x1_1_0_0_1_n_n : DotDims S160000x64 S64x1 S160000x1 where
  lhsContracting := [1]
  rhsContracting := [0]
  lhsNonContracting := [0]
  rhsNonContracting := [1]
  lhsBatch := []
  rhsBatch := []
  wf := dot_S160000x64_S64x1_S160000x1_1_0_0_1_n_n_wf

class Facts : Prop extends Facts₀ where

variable [Facts]
-- ==== Proof.KernelRun.lean ====
/-
  The idealized kernel program's run with its result named.

  @main is seven segments: four stretches of host operations around three pipelined regions.  Every weakly fair
  execution terminates without a fault; in the final state the result buffer holds the fold of those segments over
  the launch memory read at the result (host stretches applied as pure functions, each region's output arrays replaced
  by what its write-backs leave), and the argument arrays are as launched.
-/
import proofs.«177604_j11828339933535_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting; the result
    buffer ends at the segments' fold read at the result, and every argument array ends as launched. -/
theorem run_result : θ_run defs (onTc (τ := τ) (main (F := F))) ⟨m, fun _ => 0, ρ⟩ (fun r => ∀ c : Dev nD,
      r.2.mem ((c.tc : Thread nD τ).loc main_v84) = W7 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v84 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

end Cert.KernelIdeal.Run

end
-- ==== Proof.Host0.lean ====
/-
  The host operations before the first region, read as pure functions of the launch memory.

  The first stretch of @main computes the layer-1 neighbourhood mean (rows gathered by source node, scaled by the edge
  weights, summed into their destination rows, divided by the clamped in-degree), rounds it and the node features to
  bf16, and reshapes the bias to a row.  At the ideal instance a rounding is the identity, so the aggregate the region
  finds is, operation for operation, the reference program's aggregate of the same arguments; the features are the
  argument itself; the bias row is the reshaped bias.  The edge end-point vectors are the reference's too.
-/
import proofs.«177604_j11828339933535_2_alg».proof.Proof.Gen.KernelIdeal.Frame
import proofs.«177604_j11828339933535_2_alg».proof.Proof.Gen.ReferenceIdeal.Read
import Idealize.ShloMosaic.Lib.StableHlo.Run
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ) (ρ : Dev nD → PrngReg) (c : Dev nD)

/-- The layer-1 aggregate the first region is entered with is the reference's aggregate of the same arguments. -/
theorem entry0_agg : (V1 m ρ c main_v28 : S10000x512.Idx → EReal)
    = Cert.ReferenceIdeal.Read.val_main_v25 (F := Ideal) (m ((c : Thread nD τ).loc main_arg0)) (m ((c : Thread nD τ).loc main_arg1)) (m ((c : Thread nD τ).loc main_arg13)) := by
  dsimp only [V1, W1, hostOps0]
  after_results_simp
  rfl

/-- The features the first region is entered with are the argument (its rounding is the identity). -/
theorem entry0_x : (V1 m ρ c main_v29 : S10000x512.Idx → EReal) = (m ((c : Thread nD τ).loc main_arg0)) := by
  dsimp only [V1, W1, hostOps0]
  after_results_simp
  rfl

theorem entry0_wrel : (V1 m ρ c main_arg3 : S512x512.Idx → EReal) = (m ((c : Thread nD τ).loc main_arg3)) := by
  dsimp only [V1, W1, hostOps0]
  after_results_simp

theorem entry0_wroot : (V1 m ρ c main_arg5 : S512x512.Idx → EReal) = (m ((c : Thread nD τ).loc main_arg5)) := by
  dsimp only [V1, W1, hostOps0]
  after_results_simp

/-- The bias row the first region is entered with is the bias vector reshaped to one row. -/
theorem entry0_bias : (V1 m ρ c main_v30 : S1x512.Idx → EReal)
    = shapeCast S1x512 ((m ((c : Thread nD τ).loc main_arg4)) : S512.Idx → EReal) shapeCasts_S512_S1x512 := by
  dsimp only [V1, W1, hostOps0]
  after_results_simp
  rfl

/-- The source end-points after the first stretch are the reference's. -/
theorem src_eq : (W1 m ρ c (Proc.devRef .tc main_v1) : S160000.Idx → BitVec 32) = Cert.ReferenceIdeal.Read.val_main_v1 (F := Ideal) (m ((c : Thread nD τ).loc main_arg13)) := by
  dsimp only [W1, hostOps0]
  after_results_simp
  rfl

/-- The destination end-points after the first stretch are the reference's. -/
theorem dst_eq : (W1 m ρ c (Proc.devRef .tc main_v3) : S160000.Idx → BitVec 32) = Cert.ReferenceIdeal.Read.val_main_v3 (F := Ideal) (m ((c : Thread nD τ).loc main_arg13)) := by
  dsimp only [W1, hostOps0]
  after_results_simp
  rfl

end Cert.KernelIdeal.Host

end
-- ==== Proof.Host1.lean ====
/-
  The host operations between the first and the second region, read as pure functions.

  The second stretch of @main computes the layer-2 neighbourhood mean of the first region's output and cuts the two
  512-row pieces and the last row off the first decoder matrix.  No operation of the first two stretches writes an
  argument, and the first region writes only its output array, so each argument is still the launch memory's.  Once
  the first region's output is known to be the reference's layer-1 embeddings, the aggregate the second region is
  entered with is, operation for operation, the reference's layer-2 aggregate.
-/
import proofs.«177604_j11828339933535_2_alg».proof.Proof.Gen.KernelIdeal.Frame
import proofs.«177604_j11828339933535_2_alg».proof.Proof.Gen.ReferenceIdeal.Read
import proofs.«177604_j11828339933535_2_alg».proof.Proof.Host0
import Idealize.ShloMosaic.Lib.StableHlo.Run
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ) (ρ : Dev nD → PrngReg) (c : Dev nD)

/-- Decides, operation by operation, that a literal buffer is written by none of a stretch's host operations. -/
macro "host_writes" ops:ident : tactic =>
  `(tactic| (simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem W2_arg1 : W2 m ρ c (Proc.devRef .tc main_arg1) = m ((c : Thread nD τ).loc main_arg1) :=
  (W2_of_ne m ρ c main_arg1 (by decide)).trans
    ((StableHlo.after_of_forall_not_mem (b := Proc.devRef .tc main_arg1) hostOps0 (W0 m ρ c) (List.forall_iff_forall_mem.mp (by host_writes hostOps0))).trans rfl)

theorem W2_arg6 : W2 m ρ c (Proc.devRef .tc main_arg6) = m ((c : Thread nD τ).loc main_arg6) :=
  (W2_of_ne m ρ c main_arg6 (by decide)).trans
    ((StableHlo.after_of_forall_not_mem (b := Proc.devRef .tc main_arg6) hostOps0 (W0 m ρ c) (List.forall_iff_forall_mem.mp (by host_writes hostOps0))).trans rfl)

theorem W2_arg7 : W2 m ρ c (Proc.devRef .tc main_arg7) = m ((c : Thread nD τ).loc main_arg7) :=
  (W2_of_ne m ρ c main_arg7 (by decide)).trans
    ((StableHlo.after_of_forall_not_mem (b := Proc.devRef .tc main_arg7) hostOps0 (W0 m ρ c) (List.forall_iff_forall_mem.mp (by host_writes hostOps0))).trans rfl)

theorem W2_arg8 : W2 m ρ c (Proc.devRef .tc main_arg8) = m ((c : Thread nD τ).loc main_arg8) :=
  (W2_of_ne m ρ c main_arg8 (by decide)).trans
    ((StableHlo.after_of_forall_not_mem (b := Proc.devRef .tc main_arg8) hostOps0 (W0 m ρ c) (List.forall_iff_forall_mem.mp (by host_writes hostOps0))).trans rfl)

theorem W2_arg9 : W2 m ρ c (Proc.devRef .tc main_arg9) = m ((c : Thread nD τ).loc main_arg9) :=
  (W2_of_ne m ρ c main_arg9 (by decide)).trans
    ((StableHlo.after_of_forall_not_mem (b := Proc.devRef .tc main_arg9) hostOps0 (W0 m ρ c) (List.forall_iff_forall_mem.mp (by host_writes hostOps0))).trans rfl)

/-- The source end-points are untouched by the first region. -/
theorem W2_src : (W2 m ρ c (Proc.devRef .tc main_v1) : S160000.Idx → BitVec 32) = Cert.ReferenceIdeal.Read.val_main_v1 (F := Ideal) (m ((c : Thread nD τ).loc main_arg13)) :=
  (W2_of_ne m ρ c main_v1 (by decide)).trans (src_eq m ρ c)

/-- The destination end-points are untouched by the first region. -/
theorem W2_dst : (W2 m ρ c (Proc.devRef .tc main_v3) : S160000.Idx → BitVec 32) = Cert.ReferenceIdeal.Read.val_main_v3 (F := Ideal) (m ((c : Thread nD τ).loc main_arg13)) :=
  (W2_of_ne m ρ c main_v3 (by decide)).trans (dst_eq m ρ c)

/-- The layer-2 aggregate the second region is entered with is the reference's, given that the first region's output
    is the reference's layer-1 embeddings. -/
theorem entry1_agg
    (h31 : (W2 m ρ c (Proc.devRef .tc main_v31) : S10000x512.Idx → EReal) = Cert.ReferenceIdeal.Read.val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg13))) :
    (V3 m ρ c main_v58 : S10000x512.Idx → EReal) = Cert.ReferenceIdeal.Read.val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg13)) := by
  dsimp only [V3, W3, hostOps1]
  after_results_simp
  rw [W2_src, W2_dst, W2_arg1, h31]
  rfl

/-- The second region reads the first region's output as it was left. -/
theorem entry1_x : (V3 m ρ c main_v31 : S10000x512.Idx → EReal) = W2 m ρ c (Proc.devRef .tc main_v31) :=
  StableHlo.after_of_forall_not_mem (b := Proc.devRef .tc main_v31) hostOps1 (W2 m ρ c) (List.forall_iff_forall_mem.mp (by host_writes hostOps1))

theorem entry1_wrel : (V3 m ρ c main_arg6 : S512x512.Idx → EReal) = (m ((c : Thread nD τ).loc main_arg6)) :=
  (StableHlo.after_of_forall_not_mem (b := Proc.devRef .tc main_arg6) hostOps1 (W2 m ρ c) (List.forall_iff_forall_mem.mp (by host_writes hostOps1))).trans (W2_arg6 m ρ c)

theorem entry1_wroot : (V3 m ρ c main_arg8 : S512x512.Idx → EReal) = (m ((c : Thread nD τ).loc main_arg8)) :=
  (StableHlo.after_of_forall_not_mem (b := Proc.devRef .tc main_arg8) hostOps1 (W2 m ρ c) (List.forall_iff_forall_mem.mp (by host_writes hostOps1))).trans (W2_arg8 m ρ c)

/-- The bias row the second region is entered with is the second bias vector reshaped to one row. -/
theorem entry1_bias : (V3 m ρ c main_v59 : S1x512.Idx → EReal)
    = shapeCast S1x512 ((m ((c : Thread nD τ).loc main_arg7)) : S512.Idx → EReal) shapeCasts_S512_S1x512 := by
  dsimp only [V3, W3, hostOps1]
  after_results_simp
  rw [W2_arg7]
  rfl

/-- The source-node piece of the first decoder matrix: its rows 0 to 511. -/
theorem entry1_wse : (V3 m ρ c main_v55 : S512x64.Idx → EReal)
    = extractStridedSlice S512x64 ![0, 0] ((m ((c : Thread nD τ).loc main_arg9)) : S1025x64.Idx → EReal) slices_S1025x64_S512x64_0_0 := by
  dsimp only [V3, W3, hostOps1]
  after_results_simp
  rw [W2_arg9]

/-- The destination-node piece of the first decoder matrix: its rows 512 to 1023. -/
theorem entry1_wde : (V3 m ρ c main_v56 : S512x64.Idx → EReal)
    = extractStridedSlice S512x64 ![512, 0] ((m ((c : Thread nD τ).loc main_arg9)) : S1025x64.Idx → EReal) slices_S1025x64_S512x64_512_0 := by
  dsimp only [V3, W3, hostOps1]
  after_results_simp
  rw [W2_arg9]

/-- The explicit-weight row of the first decoder matrix (its row 1024) after the second stretch. -/
theorem W3_ww : (W3 m ρ c (Proc.devRef .tc main_v57) : S1x64.Idx → EReal)
    = extractStridedSlice S1x64 ![1024, 0] ((m ((c : Thread nD τ).loc main_arg9)) : S1025x64.Idx → EReal) slices_S1025x64_S1x64_1024_0 := by
  dsimp only [W3, hostOps1]
  after_results_simp
  rw [W2_arg9]

end Cert.KernelIdeal.Host

end
-- ==== Proof.Host2.lean ====
/-
  The host operations between the second and the third region, and the one after it, read as pure functions.

  The third stretch of @main gathers, for every labelled edge, the row of each projected embedding array at the
  edge's end node (the label indices normalised as the reference normalises them), and reshapes the explicit weights
  to a column and the decoder's remaining parameters to rows.  The last stretch reshapes the third region's column of
  scores to a vector.  No stretch and no region writes an argument.
-/
import proofs.«177604_j11828339933535_2_alg».proof.Proof.Gen.KernelIdeal.Frame
import proofs.«177604_j11828339933535_2_alg».proof.Proof.Gen.ReferenceIdeal.Read
import proofs.«177604_j11828339933535_2_alg».proof.Proof.Host1
import Idealize.ShloMosaic.Lib.StableHlo.Run
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ) (ρ : Dev nD → PrngReg) (c : Dev nD)

theorem W4_arg14 : W4 m ρ c (Proc.devRef .tc main_arg14) = m ((c : Thread nD τ).loc main_arg14) :=
  (W4_of_ne m ρ c main_arg14 (by decide)).trans
    ((StableHlo.after_of_forall_not_mem (b := Proc.devRef .tc main_arg14) hostOps1 (W2 m ρ c) (List.forall_iff_forall_mem.mp (by host_writes hostOps1))).trans
      ((W2_of_ne m ρ c main_arg14 (by decide)).trans
        ((StableHlo.after_of_forall_not_mem (b := Proc.devRef .tc main_arg14) hostOps0 (W0 m ρ c) (List.forall_iff_forall_mem.mp (by host_writes hostOps0))).trans rfl)))

theorem W4_arg2 : W4 m ρ c (Proc.devRef .tc main_arg2) = m ((c : Thread nD τ).loc main_arg2) :=
  (W4_of_ne m ρ c main_arg2 (by decide)).trans
    ((StableHlo.after_of_forall_not_mem (b := Proc.devRef .tc main_arg2) hostOps1 (W2 m ρ c) (List.forall_iff_forall_mem.mp (by host_writes hostOps1))).trans
      ((W2_of_ne m ρ c main_arg2 (by decide)).trans
        ((StableHlo.after_of_forall_not_mem (b := Proc.devRef .tc main_arg2) hostOps0 (W0 m ρ c) (List.forall_iff_forall_mem.mp (by host_writes hostOps0))).trans rfl)))

theorem W4_arg10 : W4 m ρ c (Proc.devRef .tc main_arg10) = m ((c : Thread nD τ).loc main_arg10) :=
  (W4_of_ne m ρ c main_arg10 (by decide)).trans
    ((StableHlo.after_of_forall_not_mem (b := Proc.devRef .tc main_arg10) hostOps1 (W2 m ρ c) (List.forall_iff_forall_mem.mp (by host_writes hostOps1))).trans
      ((W2_of_ne m ρ c main_arg10 (by decide)).trans
        ((StableHlo.after_of_forall_not_mem (b := Proc.devRef .tc main_arg10) hostOps0 (W0 m ρ c) (List.forall_iff_forall_mem.mp (by host_writes hostOps0))).trans rfl)))

theorem W4_arg11 : W4 m ρ c (Proc.devRef .tc main_arg11) = m ((c : Thread nD τ).loc main_arg11) :=
  (W4_of_ne m ρ c main_arg11 (by decide)).trans
    ((StableHlo.after_of_forall_not_mem (b := Proc.devRef .tc main_arg11) hostOps1 (W2 m ρ c) (List.forall_iff_forall_mem.mp (by host_writes hostOps1))).trans
      ((W2_of_ne m ρ c main_arg11 (by decide)).trans
        ((StableHlo.after_of_forall_not_mem (b := Proc.devRef .tc main_arg11) hostOps0 (W0 m ρ c) (List.forall_iff_forall_mem.mp (by host_writes hostOps0))).trans rfl)))

theorem W4_arg12 : W4 m ρ c (Proc.devRef .tc main_arg12) = m ((c : Thread nD τ).loc main_arg12) :=
  (W4_of_ne m ρ c main_arg12 (by decide)).trans
    ((StableHlo.after_of_forall_not_mem (b := Proc.devRef .tc main_arg12) hostOps1 (W2 m ρ c) (List.forall_iff_forall_mem.mp (by host_writes hostOps1))).trans
      ((W2_of_ne m ρ c main_arg12 (by decide)).trans
        ((StableHlo.after_of_forall_not_mem (b := Proc.devRef .tc main_arg12) hostOps0 (W0 m ρ c) (List.forall_iff_forall_mem.mp (by host_writes hostOps0))).trans rfl)))

/-- The explicit-weight row of the first decoder matrix is untouched by the second region. -/
theorem W4_ww : (W4 m ρ c (Proc.devRef .tc main_v57) : S1x64.Idx → EReal)
    = extractStridedSlice S1x64 ![1024, 0] ((m ((c : Thread nD τ).loc main_arg9)) : S1025x64.Idx → EReal) slices_S1025x64_S1x64_1024_0 :=
  (W4_of_ne m ρ c main_v57 (by decide)).trans (W3_ww m ρ c)

/-- The source-node rows the decoder is entered with: the second region's first output gathered at the reference's
    start-index column of the labelled edges' first end. -/
theorem entry2_se : (V5 m ρ c main_v69 : S160000x64.Idx → EReal)
    = Host.gather gather_S10000x64_S160000x1_S160000x64_1_0_n_n_0_1_164
        (W4 m ρ c (Proc.devRef .tc main_v60_0) : S10000x64.Idx → EReal) (Cert.ReferenceIdeal.Read.val_main_v68 (F := Ideal) (m ((c : Thread nD τ).loc main_arg14))) := by
  dsimp only [V5, W5, hostOps2]
  after_results_simp
  rw [W4_arg14]
  rfl

/-- The destination-node rows the decoder is entered with. -/
theorem entry2_de : (V5 m ρ c main_v78 : S160000x64.Idx → EReal)
    = Host.gather gather_S10000x64_S160000x1_S160000x64_1_0_n_n_0_1_164
        (W4 m ρ c (Proc.devRef .tc main_v60_1) : S10000x64.Idx → EReal) (Cert.ReferenceIdeal.Read.val_main_v77 (F := Ideal) (m ((c : Thread nD τ).loc main_arg14))) := by
  dsimp only [V5, W5, hostOps2]
  after_results_simp
  rw [W4_arg14]
  rfl

/-- The explicit weights as a column. -/
theorem entry2_ew : (V5 m ρ c main_v79 : S160000x1.Idx → EReal)
    = shapeCast S160000x1 ((m ((c : Thread nD τ).loc main_arg2)) : S160000.Idx → EReal) shapeCasts_S160000_S160000x1 := by
  dsimp only [V5, W5, hostOps2]
  after_results_simp
  rw [W4_arg2]
  rfl

theorem entry2_ww : (V5 m ρ c main_v57 : S1x64.Idx → EReal)
    = extractStridedSlice S1x64 ![1024, 0] ((m ((c : Thread nD τ).loc main_arg9)) : S1025x64.Idx → EReal) slices_S1025x64_S1x64_1024_0 :=
  (StableHlo.after_of_forall_not_mem (b := Proc.devRef .tc main_v57) hostOps2 (W4 m ρ c) (List.forall_iff_forall_mem.mp (by host_writes hostOps2))).trans (W4_ww m ρ c)

theorem entry2_bd1 : (V5 m ρ c main_v80 : S1x64.Idx → EReal)
    = shapeCast S1x64 ((m ((c : Thread nD τ).loc main_arg10)) : S64.Idx → EReal) shapeCasts_S64_S1x64 := by
  dsimp only [V5, W5, hostOps2]
  after_results_simp
  rw [W4_arg10]
  rfl

theorem entry2_wd2 : (V5 m ρ c main_v81 : S1x64.Idx → EReal)
    = shapeCast S1x64 ((m ((c : Thread nD τ).loc main_arg11)) : S64x1.Idx → EReal) shapeCasts_S64x1_S1x64 := by
  dsimp only [V5, W5, hostOps2]
  after_results_simp
  rw [W4_arg11]
  rfl

theorem entry2_bd2 : (V5 m ρ c main_v82 : S1x1.Idx → EReal)
    = shapeCast S1x1 ((m ((c : Thread nD τ).loc main_arg12)) : S1.Idx → EReal) shapeCasts_S1_S1x1 := by
  dsimp only [V5, W5, hostOps2]
  after_results_simp
  rw [W4_arg12]
  rfl

/-- @main's result is the third region's column of scores reshaped to a vector. -/
theorem result_eq : (W7 m ρ c (Proc.devRef .tc main_v84) : S160000.Idx → EReal)
    = shapeCast S160000 (W6 m ρ c (Proc.devRef .tc main_v83) : S160000x1.Idx → EReal) shapeCasts_S160000x1_S160000 := by
  dsimp only [W7, hostOps3]
  after_results_simp
  rfl

end Cert.KernelIdeal.Host

end
-- ==== Proof.Spec.lean ====
/-
  The mathematics both programs compute, stated once over extended reals, index by index, on literal shapes.

  A graph-convolution layer combines, for node r and output feature j,
      (Σ_k agg[r,k]·Wrel[k,j] + Σ_k x[r,k]·Wroot[k,j]) + b[j]
  (the first layer then clamps at 0 from below).  The decoder scores edge e from the second layer's rows of its two
  end nodes: with the 1025 rows of the first decoder matrix split as 512 + 512 + 1,
      h[e,j] = ((Σ_k Z[g0 e,k]·Wd1[k,j] + Σ_k Z[g1 e,k]·Wd1[512+k,j]) + w[e]·Wd1[1024,j]) + bd1[j],
      score[e] = Σ_j max(h[e,j], 0)·Wd2[j,0] + bd2[0].
  Only commutativity and associativity of + and · on the extended reals relate the two programs to these forms, so
  no finiteness of the inputs is used.
-/
import Idealize.ShloMosaic.PureOps.Ideal
import Idealize.ShloMosaic.Lib.ValueIdx

noncomputable section

namespace Cert.GraphSpec

open Idealize.ShloMosaic Idealize.ShloMosaic.ValueIdx

/-- A two-axis array of extended reals over literal extents. -/
abbrev Arr2 (a b : Nat) := (⟨2, ![a, b]⟩ : Shape).Idx → EReal
/-- A one-axis array of extended reals over a literal extent. -/
abbrev Arr1 (a : Nat) := (⟨1, ![a]⟩ : Shape).Idx → EReal

/-- The row index a start-index column selects for edge e: the entry read as a signed integer and clamped into
    the node range [0, 9999]. -/
def rowIdx {w : Nat} (idx : (⟨2, ![160000, 1]⟩ : Shape).Idx → BitVec w) (e : Fin 160000) : Fin 10000 :=
  ⟨min (idx (ix2 e 0)).toInt.toNat 9999, by omega⟩

/-- A vector read as a one-row array: entry (0, j) is v[j]. -/
def asRow {n : Nat} (v : Arr1 n) : Arr2 1 n := fun i => v (ix1 ⟨(i 1).val, idx2_lt1 i⟩)

/-- One layer's combination at node r, feature j: (agg·Wrel + x·Wroot) + b, the bias a one-row array. -/
def convAt (agg x : Arr2 10000 512) (wrel wroot : Arr2 512 512) (b : Arr2 1 512) (r : Fin 10000) (j : Fin 512) : EReal :=
  ((∑ k : Fin 512, agg (ix2 r k) * wrel (ix2 k j)) + ∑ k : Fin 512, x (ix2 r k) * wroot (ix2 k j)) + b (ix2 0 j)

/-- The second layer's node embeddings (no clamp). -/
def conv (agg x : Arr2 10000 512) (wrel wroot : Arr2 512 512) (b : Arr2 1 512) : Arr2 10000 512 :=
  fun i => convAt agg x wrel wroot b ⟨(i 0).val, idx2_lt0 i⟩ ⟨(i 1).val, idx2_lt1 i⟩

/-- The first layer's node embeddings: the combination clamped at 0 from below. -/
def layer1 (agg x : Arr2 10000 512) (wrel wroot : Arr2 512 512) (b : Arr2 1 512) : Arr2 10000 512 :=
  fun i => max (convAt agg x wrel wroot b ⟨(i 0).val, idx2_lt0 i⟩ ⟨(i 1).val, idx2_lt1 i⟩) 0

/-- Node embeddings projected through a 512×64 matrix: entry (r, j) is Σ_k z[r,k]·w[k,j]. -/
def proj (z : Arr2 10000 512) (w : Arr2 512 64) : Arr2 10000 64 :=
  fun i => ∑ k : Fin 512, z (ix2 ⟨(i 0).val, idx2_lt0 i⟩ k) * w (ix2 k ⟨(i 1).val, idx2_lt1 i⟩)

/-- The decoder on already projected and gathered rows: entry (e, 0) is
    Σ_j max(((se[e,j] + de[e,j]) + ew[e,0]·ww[0,j]) + bd1[0,j], 0)·wd2[0,j] + bd2[0,0]. -/
def decode (se de : Arr2 160000 64) (ew : Arr2 160000 1) (ww bd1 wd2 : Arr2 1 64) (bd2 : Arr2 1 1) : Arr2 160000 1 :=
  fun i => (∑ j : Fin 64, max (((se (ix2 ⟨(i 0).val, idx2_lt0 i⟩ j) + de (ix2 ⟨(i 0).val, idx2_lt0 i⟩ j))
      + ew (ix2 ⟨(i 0).val, idx2_lt0 i⟩ 0) * ww (ix2 0 j)) + bd1 (ix2 0 j)) 0 * wd2 (ix2 0 j)) + bd2 (ix2 0 0)

/-- The score of edge e from the node embeddings Z, the two end-node maps, the explicit edge weights and the decoder's
    parameters, the first decoder matrix's 1025 rows read as 512 + 512 + 1. -/
def edgeScore (Z : Arr2 10000 512) (g0 g1 : Fin 160000 → Fin 10000) (ex : Arr1 160000) (wd1 : Arr2 1025 64)
    (bd1 : Arr1 64) (wd2 : Arr2 64 1) (bd2 : Arr1 1) (e : Fin 160000) : EReal :=
  (∑ j : Fin 64, max ((((∑ k : Fin 512, Z (ix2 (g0 e) k) * wd1 (ix2 ⟨k.val, by omega⟩ j))
      + ∑ k : Fin 512, Z (ix2 (g1 e) k) * wd1 (ix2 ⟨512 + k.val, by omega⟩ j))
      + ex (ix1 e) * wd1 (ix2 ⟨1024, by omega⟩ j)) + bd1 (ix1 j)) 0 * wd2 (ix2 j 0)) + bd2 (ix1 0)

theorem conv_apply (agg x : Arr2 10000 512) (wrel wroot : Arr2 512 512) (b : Arr2 1 512) (r : Fin 10000) (j : Fin 512) :
    conv agg x wrel wroot b (ix2 r j) = convAt agg x wrel wroot b r j := rfl

theorem layer1_apply (agg x : Arr2 10000 512) (wrel wroot : Arr2 512 512) (b : Arr2 1 512) (r : Fin 10000) (j : Fin 512) :
    layer1 agg x wrel wroot b (ix2 r j) = max (convAt agg x wrel wroot b r j) 0 := rfl

theorem proj_apply (z : Arr2 10000 512) (w : Arr2 512 64) (r : Fin 10000) (j : Fin 64) :
    proj z w (ix2 r j) = ∑ k : Fin 512, z (ix2 r k) * w (ix2 k j) := rfl

theorem decode_apply (se de : Arr2 160000 64) (ew : Arr2 160000 1) (ww bd1 wd2 : Arr2 1 64) (bd2 : Arr2 1 1) (e : Fin 160000) :
    decode se de ew ww bd1 wd2 bd2 (ix2 e 0)
      = (∑ j : Fin 64, max (((se (ix2 e j) + de (ix2 e j)) + ew (ix2 e 0) * ww (ix2 0 j)) + bd1 (ix2 0 j)) 0 * wd2 (ix2 0 j))
        + bd2 (ix2 0 0) := rfl

end Cert.GraphSpec

end
-- ==== Proof.Payload01.lean ====
/-
  The two layer bodies read at an index.

  Each body loads a block of 1000 node rows of the aggregated neighbours and of the node features, the two
  512×512 weight matrices and the one-row bias, and forms (agg·Wrel + x·Wroot) + b with two matrix products into
  zero accumulators.  Over the extended reals a format change is the identity, a matrix product into a zero
  accumulator read at (r, j) is the sum over the contraction coordinate k of lhs[r,k]·rhs[k,j], and a one-row array
  broadcast over the rows reads its row 0.  The first layer clamps at 0 from below; the second multiplies the result
  by two 512×64 matrices.
-/
import proofs.«177604_j11828339933535_2_alg».proof.Proof.Gen.KernelIdeal.Skeleton
import proofs.«177604_j11828339933535_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Idealize.ShloMosaic Idealize.ShloMosaic.ValueIdx Idealize.SL.Sem

/-! ## A matrix product into a zero accumulator, read at an index

The operand indices of a product with one contracting axis, coordinate by coordinate: the left operand is read at
(row of the output, contraction coordinate), the right at (contraction coordinate, column of the output). -/

theorem matmul512_lhs0 (i : S1000x512.Idx) (q : dot_S1000x512_S512x512_S1000x512_1_0_0_1_n_n.contr.Idx) : (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem matmul512_lhs1 (i : S1000x512.Idx) (q : dot_S1000x512_S512x512_S1000x512_1_0_0_1_n_n.contr.Idx) : (dot_S1000x512_S512x512_S1000x512_1_0_0_1_n_n.lhsIdx i q 1).val = (q ⟨0, by decide⟩).val :=
  dot_S1000x512_S512x512_S1000x512_1_0_0_1_n_n.lhsIdx_val_of_single rfl i q
theorem matmul512_rhs0 (i : S1000x512.Idx) (q : dot_S1000x512_S512x512_S1000x512_1_0_0_1_n_n.contr.Idx) : (dot_S1000x512_S512x512_S1000x512_1_0_0_1_n_n.rhsIdx i q 0).val = (q ⟨0, by decide⟩).val :=
  dot_S1000x512_S512x512_S1000x512_1_0_0_1_n_n.rhsIdx_val_of_single rfl i q
theorem matmul512_rhs1 (i : S1000x512.Idx) (q : dot_S1000x512_S512x512_S1000x512_1_0_0_1_n_n.contr.Idx) : (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The product of a 1000×512 block with a 512×512 matrix into the zero accumulator: entry (r, j) is
    Σ_k a[r,k]·w[k,j]. -/
theorem matmul512_apply {φ₁ φ₂ : FTy} (a : FVec Ideal S1000x512 φ₁) (w : FVec Ideal S512x512 φ₂) (r : Fin 1000) (j : Fin 512) :
    matmul (F := Ideal) dot_S1000x512_S512x512_S1000x512_1_0_0_1_n_n none a w (constant (F := Ideal) S1000x512 .f32 0x00000000#32) (ix2 r j)
      = ∑ k : Fin 512, a (ix2 r k) * w (ix2 k j) := by
  simp only [matmul]
  rw [Ideal.matmul_constant_zero_apply, ← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 r j) ((contrEquiv1 dot_S1000x512_S512x512_S1000x512_1_0_0_1_n_n 512 rfl rfl).symm k) = ix2 r k := funext fun a => Fin.ext (by
    match a with
    | ⟨0, _⟩ => exact matmul512_lhs0 _ _
    | ⟨1, _⟩ => exact (matmul512_lhs1 _ _).trans hk)
  have er : dot_S1000x512_S512x512_S1000x512_1_0_0_1_n_n.rhsIdx (ix2 r j) ((contrEquiv1 dot_S1000x512_S512x512_S1000x512_1_0_0_1_n_n 512 rfl rfl).symm k) = ix2 k j := funext fun a => Fin.ext (by
    match a with
    | ⟨0, _⟩ => exact (matmul512_rhs0 _ _).trans hk
    | ⟨1, _⟩ => exact matmul512_rhs1 _ _)
  rw [el, er]

theorem matmul64_lhs0 (i : S1000x64.Idx) (q : dot_S1000x512_S512x64_S1000x64_1_0_0_1_n_n.contr.Idx) : (dot_S1000x512_S512x64_S1000x64_1_0_0_1_n_n.lhsIdx i q 0).val = (i 0).val := by
  unfold DotDims.lhsIdx
  rw [dif_neg (show ¬(0 : Fin S1000x512.rank) ∈ dot_S1000x512_S512x64_S1000x64_1_0_0_1_n_n.lhsBatch by decide), dif_pos (show (0 : Fin S1000x512.rank) ∈ dot_S1000x512_S512x64_S1000x64_1_0_0_1_n_n.lhsNonContracting by decide)]
  rfl
theorem matmul64_lhs1 (i : S1000x64.Idx) (q : dot_S1000x512_S512x64_S1000x64_1_0_0_1_n_n.contr.Idx) : (dot_S1000x512_S512x64_S1000x64_1_0_0_1_n_n.lhsIdx i q 1).val = (q ⟨0, by decide⟩).val :=
  dot_S1000x512_S512x64_S1000x64_1_0_0_1_n_n.lhsIdx_val_of_single rfl i q
theorem matmul64_rhs0 (i : S1000x64.Idx) (q : dot_S1000x512_S512x64_S1000x64_1_0_0_1_n_n.contr.Idx) : (dot_S1000x512_S512x64_S1000x64_1_0_0_1_n_n.rhsIdx i q 0).val = (q ⟨0, by decide⟩).val :=
  dot_S1000x512_S512x64_S1000x64_1_0_0_1_n_n.rhsIdx_val_of_single rfl i q
theorem matmul64_rhs1 (i : S1000x64.Idx) (q : dot_S1000x512_S512x64_S1000x64_1_0_0_1_n_n.contr.Idx) : (dot_S1000x512_S512x64_S1000x64_1_0_0_1_n_n.rhsIdx i q 1).val = (i 1).val := by
  unfold DotDims.rhsIdx
  rw [dif_neg (show ¬(1 : Fin S512x64.rank) ∈ dot_S1000x512_S512x64_S1000x64_1_0_0_1_n_n.rhsBatch by decide), dif_pos (show (1 : Fin S512x64.rank) ∈ dot_S1000x512_S512x64_S1000x64_1_0_0_1_n_n.rhsNonContracting by decide)]
  rfl

/-- The product of a 1000×512 block with a 512×64 matrix into the zero accumulator: entry (r, j) is
    Σ_k a[r,k]·w[k,j]. -/
theorem matmul64_apply {φ₁ φ₂ : FTy} (a : FVec Ideal S1000x512 φ₁) (w : FVec Ideal S512x64 φ₂) (r : Fin 1000) (j : Fin 64) :
    matmul (F := Ideal) dot_S1000x512_S512x64_S1000x64_1_0_0_1_n_n none a w (constant (F := Ideal) S1000x64 .f32 0x00000000#32) (ix2 r j)
      = ∑ k : Fin 512, a (ix2 r k) * w (ix2 k j) := by
  simp only [matmul]
  rw [Ideal.matmul_constant_zero_apply, ← Equiv.sum_comp (contrEquiv1 dot_S1000x512_S512x64_S1000x64_1_0_0_1_n_n 512 rfl rfl).symm]
  refine Finset.sum_congr rfl fun k _ => ?_
  have hk := contrEquiv1_symm_val dot_S1000x512_S512x64_S1000x64_1_0_0_1_n_n 512 rfl rfl k
  have el : dot_S1000x512_S512x64_S1000x64_1_0_0_1_n_n.lhsIdx (ix2 r j) ((contrEquiv1 dot_S1000x512_S512x64_S1000x64_1_0_0_1_n_n 512 rfl rfl).symm k) = ix2 r k := funext fun a => Fin.ext (by
    match a with
    | ⟨0, _⟩ => exact matmul64_lhs0 _ _
    | ⟨1, _⟩ => exact (matmul64_lhs1 _ _).trans hk)
  have er : dot_S1000x512_S512x64_S1000x64_1_0_0_1_n_n.rhsIdx (ix2 r j) ((contrEquiv1 dot_S1000x512_S512x64_S1000x64_1_0_0_1_n_n 512 rfl rfl).symm k) = ix2 k j := funext fun a => Fin.ext (by
    match a with
    | ⟨0, _⟩ => exact (matmul64_rhs0 _ _).trans hk
    | ⟨1, _⟩ => exact matmul64_rhs1 _ _)
  rw [el, er]

/-! ## The layer bodies -/

/-- The second layer's block before its projections: entry (r, j) is (Σ_k agg[r,k]·Wrel[k,j] + Σ_k x[r,k]·Wroot[k,j]) + b[0,j]. -/
theorem pay1z_apply (agg x : FVec Ideal S1000x512 .bf16) (wrel wroot : FVec Ideal S512x512 .f32) (b : FVec Ideal S1x512 .f32)
    (r : Fin 1000) (j : Fin 512) :
    Gen.k1_pay1 (F := Ideal) agg x wrel wroot b (ix2 r j)
      = ((∑ k : Fin 512, agg (ix2 r k) * wrel (ix2 k j)) + ∑ k : Fin 512, x (ix2 r k) * wroot (ix2 k j)) + b (ix2 0 j) := by
  unfold Gen.k1_pay1
  rw [truncf_apply, addf_apply, addf_apply, matmul512_apply, matmul512_apply, broadcastTo_1b_ab_apply]
  simp only [shapeCast_self, truncf_apply]

/-- The first layer's block: the same combination clamped at 0 from below. -/
theorem pay0_apply (agg x : FVec Ideal S1000x512 .bf16) (wrel wroot : FVec Ideal S512x512 .f32) (b : FVec Ideal S1x512 .f32)
    (r : Fin 1000) (j : Fin 512) :
    Gen.k0_pay1 (F := Ideal) agg x wrel wroot b (ix2 r j)
      = max (((∑ k : Fin 512, agg (ix2 r k) * wrel (ix2 k j)) + ∑ k : Fin 512, x (ix2 r k) * wroot (ix2 k j)) + b (ix2 0 j)) 0 := by
  unfold Gen.k0_pay1
  rw [truncf_apply, maximumf_apply, addf_apply, addf_apply, matmul512_apply, matmul512_apply, broadcastTo_1b_ab_apply, broadcast_apply]
  simp only [shapeCast_self, truncf_apply]
  show max _ (Ideal.ofBits .f32 0x00000000#32) = _
  rw [Ideal.ofBits_zero_f32]

/-- The second layer's first projection: entry (r, j) is Σ_k z[r,k]·Wse[k,j] with z the block before projection. -/
theorem pay1se_apply (agg x : FVec Ideal S1000x512 .bf16) (wrel wroot : FVec Ideal S512x512 .f32) (b : FVec Ideal S1x512 .f32)
    (wse : FVec Ideal S512x64 .f32) (r : Fin 1000) (j : Fin 64) :
    Gen.k1_pay2 (F := Ideal) agg x wrel wroot b wse (ix2 r j)
      = ∑ k : Fin 512, Gen.k1_pay1 (F := Ideal) agg x wrel wroot b (ix2 r k) * wse (ix2 k j) := by
  unfold Gen.k1_pay2
  rw [truncf_apply, matmul64_apply]
  simp only [shapeCast_self, truncf_apply]

/-- The second layer's second projection: entry (r, j) is Σ_k z[r,k]·Wde[k,j]. -/
theorem pay1de_apply (agg x : FVec Ideal S1000x512 .bf16) (wrel wroot : FVec Ideal S512x512 .f32) (b : FVec Ideal S1x512 .f32)
    (wde : FVec Ideal S512x64 .f32) (r : Fin 1000) (j : Fin 64) :
    Gen.k1_pay3 (F := Ideal) agg x wrel wroot b wde (ix2 r j)
      = ∑ k : Fin 512, Gen.k1_pay1 (F := Ideal) agg x wrel wroot b (ix2 r k) * wde (ix2 k j) := by
  unfold Gen.k1_pay3
  rw [truncf_apply, matmul64_apply]
  simp only [shapeCast_self, truncf_apply]

end Cert.KernelIdeal.Payload

end
-- ==== Proof.Blocks0.lean ====
/-
  The first layer's kernel region, from blocks to the whole array.

  The grid has 10 points; point t loads rows 1000·t … 1000·t + 999 of the aggregated neighbours and of the node features,
  the two whole weight matrices and the whole bias row, and writes back rows 1000·t … 1000·t + 999 of the result.  Each
  written block is therefore the restriction of ONE function of the whole arrays, the specification's first layer, and
  the ten blocks cover all 10000 rows: row r lies in the block of point r / 1000.
-/
import proofs.«177604_j11828339933535_2_alg».proof.Proof.Gen.KernelIdeal.Frame
import proofs.«177604_j11828339933535_2_alg».proof.Proof.Payload01
import proofs.«177604_j11828339933535_2_alg».proof.Proof.Spec
import Idealize.ShloMosaic.Lib.Pipeline.Value
import Idealize.ShloMosaic.Lib.ValueIdx

set_option maxRecDepth 16384

noncomputable section

namespace Cert.KernelIdeal.Blocks0

open Cert.KernelIdeal Cert.KernelIdeal.Gen Idealize.ShloMosaic Idealize.ShloMosaic.TcCoe Idealize.ShloMosaic.ValueIdx Idealize.SL.Sem
open Idealize.ShloMosaic.Pipeline (Dat)
open Cert.GraphSpec

variable (V : (c : Dev nD) → (b : Ref sig .tc) → Buf (Elt Ideal) ((c : Thread nD τ).loc b))

/-! ## The index maps over the grid -/

theorem hz : (![0, 0] : Fin 2 → Nat) = fun _ => 0 := funext fun a => by fin_cases a <;> rfl

/-- The printed index maps, decided over the 10 points: the two row-blocked operands and the result are at block
    (t, 0); the weight matrices and the bias row are always at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## One point's value, over variables -/

/-- If a point's blocks are rows p·1000 … of the two node arrays and the whole weight and bias arrays, the body's
    result at a block index is the first layer at the corresponding array index. -/
theorem point_eq (agg x : FVec Ideal S1000x512 .bf16) (wrel wroot : FVec Ideal S512x512 .f32) (b : FVec Ideal S1x512 .f32)
    (Agg X : Arr2 10000 512) (Wrel Wroot : Arr2 512 512) (B : Arr2 1 512) (p : Nat)
    (hagg : ∀ (y : S1000x512.Idx) (i : S10000x512.Idx), (i 0).val = p * 1000 + (y 0).val → (i 1).val = (y 1).val → agg y = Agg i)
    (hx : ∀ (y : S1000x512.Idx) (i : S10000x512.Idx), (i 0).val = p * 1000 + (y 0).val → (i 1).val = (y 1).val → x y = X i)
    (hwrel : ∀ y : S512x512.Idx, wrel y = Wrel y) (hwroot : ∀ y : S512x512.Idx, wroot y = Wroot y)
    (hb : ∀ y : S1x512.Idx, b y = B y)
    (y : S1000x512.Idx) (i : S10000x512.Idx) (h0 : (i 0).val = p * 1000 + (y 0).val) (h1 : (i 1).val = (y 1).val) :
    k0_pay1 (F := Ideal) agg x wrel wroot b y = layer1 Agg X Wrel Wroot B i := by
  obtain ⟨r, j, rfl⟩ : ∃ r j, y = ix2 r j := ⟨y 0, y 1, eq_ix2 y⟩
  obtain ⟨R, J, rfl⟩ : ∃ R J, i = ix2 R J := ⟨i 0, i 1, eq_ix2 i⟩
  obtain rfl : J = j := Fin.ext h1
  rw [Payload.pay0_apply, layer1_apply]
  unfold convAt
  have eagg : ∀ k : Fin 512, agg (ix2 r k) = Agg (ix2 R k) := fun k => hagg _ _ h0 rfl
  have ex : ∀ k : Fin 512, x (ix2 r k) = X (ix2 R k) := fun k => hx _ _ h0 rfl
  simp only [eagg, ex, hwrel, hwroot, hb]

/-! ## The blocks a point reads -/

/-- The aggregated-neighbours block at point t is rows 1000·t … of its array. -/
theorem agg_block (c : Dev nD) (t : Fin cfg0.N) (y : S1000x512.Idx) (i : S10000x512.Idx)
    (h0 : (i 0).val = t.val * 1000 + (y 0).val) (h1 : (i 1).val = (y 1).val) :
    (iblk0 V c 0 t : Vec Ideal S1000x512 .bf16) y = (V c main_v28 : S10000x512.Idx → EReal) i := by
  obtain ⟨e0, e1, -⟩ := idx_facts t
  unfold iblk0
  rw [View.read_apply]
  show V c main_v28 _ = V c main_v28 _
  refine congrArg _ (funext fun a => Fin.ext ?_)
  match a with
  | ⟨0, _⟩ => show win0_0.index t (0 : Fin 2) * 1000 + 1 * (y 0).val = (i 0).val; rw [e0, h0]; omega
  | ⟨1, _⟩ => show win0_0.index t (1 : Fin 2) * 512 + 1 * (y 1).val = (i 1).val; rw [e1, h1]; omega

/-- The node-features block at point t is rows 1000·t … of its array. -/
theorem x_block (c : Dev nD) (t : Fin cfg0.N) (y : S1000x512.Idx) (i : S10000x512.Idx)
    (h0 : (i 0).val = t.val * 1000 + (y 0).val) (h1 : (i 1).val = (y 1).val) :
    (iblk0 V c 1 t : Vec Ideal S1000x512 .bf16) y = (V c main_v29 : S10000x512.Idx → EReal) i := by
  obtain ⟨-, -, e0, e1, -⟩ := idx_facts t
  unfold iblk0
  rw [View.read_apply]
  show V c main_v29 _ = V c main_v29 _
  refine congrArg _ (funext fun a => Fin.ext ?_)
  match a with
  | ⟨0, _⟩ => show win0_1.index t (0 : Fin 2) * 1000 + 1 * (y 0).val = (i 0).val; rw [e0, h0]; omega
  | ⟨1, _⟩ => show win0_1.index t (1 : Fin 2) * 512 + 1 * (y 1).val = (i 1).val; rw [e1, h1]; omega

/-- The neighbours' weight block is the whole matrix at every point. -/
theorem wrel_block (c : Dev nD) (t : Fin cfg0.N) (y : S512x512.Idx) :
    (iblk0 V c 2 t : Vec Ideal S512x512 .f32) y = (V c main_arg3 : S512x512.Idx → EReal) y := by
  obtain ⟨-, -, -, -, e0, e1, -⟩ := idx_facts t
  unfold iblk0
  rw [View.read_apply]
  show V c main_arg3 _ = V c main_arg3 _
  refine congrArg _ (funext fun a => Fin.ext ?_)
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

/-- The bias block is the whole row at every point. -/
theorem bias_block (c : Dev nD) (t : Fin cfg0.N) (y : S1x512.Idx) :
    (iblk0 V c 3 t : Vec Ideal S1x512 .f32) y = (V c main_v30 : S1x512.Idx → EReal) y := by
  obtain ⟨-, -, -, -, -, -, e0, e1, -⟩ := idx_facts t
  unfold iblk0
  rw [View.read_apply]
  show V c main_v30 _ = V c main_v30 _
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 512 + 1 * (y 1).val = (y 1).val; rw [e1]; omega

/-- The nodes' own weight block is the whole matrix at every point. -/
theorem wroot_block (c : Dev nD) (t : Fin cfg0.N) (y : S512x512.Idx) :
    (iblk0 V c 4 t : Vec Ideal S512x512 .f32) y = (V c main_arg5 : S512x512.Idx → EReal) y := by
  obtain ⟨-, -, -, -, -, -, -, -, e0, e1, -⟩ := idx_facts t
  unfold iblk0
  rw [View.read_apply]
  show V c main_arg5 _ = V c main_arg5 _
  refine congrArg _ (funext fun a => Fin.ext ?_)
  match a with
  | ⟨0, _⟩ => show win0_4.index t (0 : Fin 2) * 512 + 1 * (y 0).val = (y 0).val; rw [e0]; omega
  | ⟨1, _⟩ => show win0_4.index t (1 : Fin 2) * 512 + 1 * (y 1).val = (y 1).val; rw [e1]; omega

/-! ## What a point writes back -/

set_option maxHeartbeats 400000 in
/-- Point t writes back block t of the first layer of the arrays as the region finds them. -/
theorem flushed_eq (c : Dev nD) (t : Fin cfg0.N) :
    (dat0 (F := Ideal) V c).flushed 5 t = ((cfg0.win 5).blk t).view.read (Elt Ideal)
      (layer1 (V c main_v28) (V c main_v29) (V c main_arg3) (V c main_arg5) (V c main_v30)) := by
  show (cfg0.win 5).cut (grid0.coords t) ((dat0 (F := Ideal) V c).after 5 t) = _
  rw [after0_5]
  unfold out0_5
  rw [View.canon_unit_zero hz]
  simp only [View.ld_unit_zero (S := S1000x512) hz, View.ld_unit_zero (S := S512x512) hz, View.ld_unit_zero (S := S1x512) hz]
  funext y
  show k0_pay1 (F := Ideal) (iblk0 V c 0 t) (iblk0 V c 1 t) (iblk0 V c 2 t) (iblk0 V c 4 t) (iblk0 V c 3 t) y
    = layer1 (V c main_v28) (V c main_v29) (V c main_arg3) (V c main_arg5) (V c main_v30) (((cfg0.win 5).blk t).view.emb y)
  obtain ⟨-, -, -, -, -, -, -, -, -, -, e0, e1⟩ := idx_facts t
  refine point_eq (iblk0 V c 0 t) (iblk0 V c 1 t) (iblk0 V c 2 t) (iblk0 V c 4 t) (iblk0 V c 3 t)
    (V c main_v28) (V c main_v29) (V c main_arg3) (V c main_arg5) (V c main_v30) t.val
    (agg_block V c t) (x_block V c t) (wrel_block V c t) (wroot_block V c t) (bias_block V c t) y _ ?_ ?_
  · show win0_5.index t (0 : Fin 2) * 1000 + 1 * (y 0).val = t.val * 1000 + (y 0).val
    rw [e0]; omega
  · show win0_5.index t (1 : Fin 2) * 512 + 1 * (y 1).val = (y 1).val
    rw [e1]; omega

/-! ## The blocks cover the array -/

/-- An index of the array is in point t's block iff each coordinate is in the block's range on its axis. -/
theorem mem_blk (t : Fin cfg0.N) (i : S10000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v31).slice (win0_5.rect t)).set ↔ _
  rw [View.set_slice_whole, Rect.mem_set_unit]
  exact Iff.rfl

/-- Row r of the result lies in the block of point r / 1000. -/
theorem cover (i : S10000x512.Idx) : ∃ t : Fin cfg0.N, (cfg0.win 5).flush t = true ∧ i ∈ ((cfg0.win 5).blk t).view.set := by
  have hN : cfg0.N = 10 := N_0
  have hi0 : (i 0).val < 10000 := (i 0).isLt
  have hi1 : (i 1).val < 512 := (i 1).isLt
  have hlt : (i 0).val / 1000 < cfg0.N := by rw [hN]; omega
  obtain ⟨-, -, -, -, -, -, -, -, -, -, e0, e1⟩ := idx_facts ⟨(i 0).val / 1000, hlt⟩
  have e0' : win0_5.index ⟨(i 0).val / 1000, hlt⟩ (0 : Fin 2) = (i 0).val / 1000 := e0
  refine ⟨⟨(i 0).val / 1000, hlt⟩, flush0_5 _, ?_⟩
  rw [mem_blk]
  intro a
  match a with
  | ⟨0, _⟩ =>
    show win0_5.index ⟨(i 0).val / 1000, hlt⟩ (0 : Fin 2) * 1000 ≤ (i 0).val ∧ (i 0).val < win0_5.index ⟨(i 0).val / 1000, hlt⟩ (0 : Fin 2) * 1000 + 1000
    rw [e0']; omega
  | ⟨1, _⟩ =>
    show win0_5.index ⟨(i 0).val / 1000, hlt⟩ (1 : Fin 2) * 512 ≤ (i 1).val ∧ (i 1).val < win0_5.index ⟨(i 0).val / 1000, hlt⟩ (1 : Fin 2) * 512 + 512
    rw [e1]; omega

/-! ## The whole array -/

/-- After the region the result array is the first layer of the arrays the region found. -/
theorem final0 (c : Dev nD) : (dat0 (F := Ideal) V c).arrAt 5 cfg0.N
    = layer1 (V c main_v28) (V c main_v29) (V c main_arg3) (V c main_arg5) (V c main_v30) :=
  (dat0 (F := Ideal) V c).arrAt_eq_of_cover 5 (layer1 (V c main_v28) (V c main_v29) (V c main_arg3) (V c main_arg5) (V c main_v30))
    (fun t _ => flushed_eq V c t) cover

end Cert.KernelIdeal.Blocks0

end
-- ==== Proof.Blocks1.lean ====
/-
  The second layer's kernel region, from blocks to the whole arrays.

  The grid has 10 points; point t loads rows 1000·t … 1000·t + 999 of the aggregated neighbours and of the first layer's
  node embeddings, the two whole 512×512 weight matrices, the whole bias row and the two whole 512×64 projection
  matrices, and writes back rows 1000·t … 1000·t + 999 of the two projected results.  Each written block is the
  restriction of ONE function of the whole arrays — the specification's second layer followed by a projection — and the
  ten blocks cover all 10000 rows: row r lies in the block of point r / 1000.
-/
import proofs.«177604_j11828339933535_2_alg».proof.Proof.Gen.KernelIdeal.Frame
import proofs.«177604_j11828339933535_2_alg».proof.Proof.Payload01
import proofs.«177604_j11828339933535_2_alg».proof.Proof.Spec
import Idealize.ShloMosaic.Lib.Pipeline.Value
import Idealize.ShloMosaic.Lib.ValueIdx

set_option maxRecDepth 16384

noncomputable section

namespace Cert.KernelIdeal.Blocks1

open Cert.KernelIdeal Cert.KernelIdeal.Gen Idealize.ShloMosaic Idealize.ShloMosaic.TcCoe Idealize.ShloMosaic.ValueIdx Idealize.SL.Sem
open Idealize.ShloMosaic.Pipeline (Dat)
open Cert.GraphSpec

variable (V : (c : Dev nD) → (b : Ref sig .tc) → Buf (Elt Ideal) ((c : Thread nD τ).loc b))

/-! ## The index maps over the grid -/

theorem hz : (![0, 0] : Fin 2 → Nat) = fun _ => 0 := funext fun a => by fin_cases a <;> rfl

/-- The printed index maps, decided over the 10 points: the two row-blocked operands and the two results are at block
    (t, 0); the weight matrices, the bias row and the projection matrices are always at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-! ## One point's values, over variables -/

/-- If a point's blocks are rows p·1000 … of the two node arrays and the whole weight and bias arrays, the body's
    combination at a block index is the second layer at the corresponding array index. -/
theorem point_z (agg x : FVec Ideal S1000x512 .bf16) (wrel wroot : FVec Ideal S512x512 .f32) (b : FVec Ideal S1x512 .f32)
    (Agg X : Arr2 10000 512) (Wrel Wroot : Arr2 512 512) (B : Arr2 1 512) (p : Nat)
    (hagg : ∀ (y : S1000x512.Idx) (i : S10000x512.Idx), (i 0).val = p * 1000 + (y 0).val → (i 1).val = (y 1).val → agg y = Agg i)
    (hx : ∀ (y : S1000x512.Idx) (i : S10000x512.Idx), (i 0).val = p * 1000 + (y 0).val → (i 1).val = (y 1).val → x y = X i)
    (hwrel : ∀ y : S512x512.Idx, wrel y = Wrel y) (hwroot : ∀ y : S512x512.Idx, wroot y = Wroot y)
    (hb : ∀ y : S1x512.Idx, b y = B y)
    (y : S1000x512.Idx) (i : S10000x512.Idx) (h0 : (i 0).val = p * 1000 + (y 0).val) (h1 : (i 1).val = (y 1).val) :
    k1_pay1 (F := Ideal) agg x wrel wroot b y = conv Agg X Wrel Wroot B i := by
  obtain ⟨r, j, rfl⟩ : ∃ r j, y = ix2 r j := ⟨y 0, y 1, eq_ix2 y⟩
  obtain ⟨R, J, rfl⟩ : ∃ R J, i = ix2 R J := ⟨i 0, i 1, eq_ix2 i⟩
  obtain rfl : J = j := Fin.ext h1
  rw [Payload.pay1z_apply, conv_apply]
  unfold convAt
  have eagg : ∀ k : Fin 512, agg (ix2 r k) = Agg (ix2 R k) := fun k => hagg _ _ h0 rfl
  have ex : ∀ k : Fin 512, x (ix2 r k) = X (ix2 R k) := fun k => hx _ _ h0 rfl
  simp only [eagg, ex, hwrel, hwroot, hb]

/-- The same for the projection through the first 512×64 matrix: the body's result at a block index is the projected second
    layer at the corresponding array index. -/
theorem point_se (agg x : FVec Ideal S1000x512 .bf16) (wrel wroot : FVec Ideal S512x512 .f32) (b : FVec Ideal S1x512 .f32)
    (w : FVec Ideal S512x64 .f32)
    (Agg X : Arr2 10000 512) (Wrel Wroot : Arr2 512 512) (B : Arr2 1 512) (W : Arr2 512 64) (p : Nat)
    (hagg : ∀ (y : S1000x512.Idx) (i : S10000x512.Idx), (i 0).val = p * 1000 + (y 0).val → (i 1).val = (y 1).val → agg y = Agg i)
    (hx : ∀ (y : S1000x512.Idx) (i : S10000x512.Idx), (i 0).val = p * 1000 + (y 0).val → (i 1).val = (y 1).val → x y = X i)
    (hwrel : ∀ y : S512x512.Idx, wrel y = Wrel y) (hwroot : ∀ y : S512x512.Idx, wroot y = Wroot y)
    (hb : ∀ y : S1x512.Idx, b y = B y) (hw : ∀ y : S512x64.Idx, w y = W y)
    (y : S1000x64.Idx) (i : S10000x64.Idx) (h0 : (i 0).val = p * 1000 + (y 0).val) (h1 : (i 1).val = (y 1).val) :
    k1_pay2 (F := Ideal) agg x wrel wroot b w y = proj (conv Agg X Wrel Wroot B) W i := by
  obtain ⟨r, j, rfl⟩ : ∃ r j, y = ix2 r j := ⟨y 0, y 1, eq_ix2 y⟩
  obtain ⟨R, J, rfl⟩ : ∃ R J, i = ix2 R J := ⟨i 0, i 1, eq_ix2 i⟩
  obtain rfl : J = j := Fin.ext h1
  rw [Payload.pay1se_apply, proj_apply]
  refine Finset.sum_congr rfl fun k _ => ?_
  rw [point_z agg x wrel wroot b Agg X Wrel Wroot B p hagg hx hwrel hwroot hb (ix2 r k) (ix2 R k) h0 rfl, hw]

/-- The same for the projection through the second 512×64 matrix: the body's result at a block index is the projected second
    layer at the corresponding array index. -/
theorem point_de (agg x : FVec Ideal S1000x512 .bf16) (wrel wroot : FVec Ideal S512x512 .f32) (b : FVec Ideal S1x512 .f32)
    (w : FVec Ideal S512x64 .f32)
    (Agg X : Arr2 10000 512) (Wrel Wroot : Arr2 512 512) (B : Arr2 1 512) (W : Arr2 512 64) (p : Nat)
    (hagg : ∀ (y : S1000x512.Idx) (i : S10000x512.Idx), (i 0).val = p * 1000 + (y 0).val → (i 1).val = (y 1).val → agg y = Agg i)
    (hx : ∀ (y : S1000x512.Idx) (i : S10000x512.Idx), (i 0).val = p * 1000 + (y 0).val → (i 1).val = (y 1).val → x y = X i)
    (hwrel : ∀ y : S512x512.Idx, wrel y = Wrel y) (hwroot : ∀ y : S512x512.Idx, wroot y = Wroot y)
    (hb : ∀ y : S1x512.Idx, b y = B y) (hw : ∀ y : S512x64.Idx, w y = W y)
    (y : S1000x64.Idx) (i : S10000x64.Idx) (h0 : (i 0).val = p * 1000 + (y 0).val) (h1 : (i 1).val = (y 1).val) :
    k1_pay3 (F := Ideal) agg x wrel wroot b w y = proj (conv Agg X Wrel Wroot B) W i := by
  obtain ⟨r, j, rfl⟩ : ∃ r j, y = ix2 r j := ⟨y 0, y 1, eq_ix2 y⟩
  obtain ⟨R, J, rfl⟩ : ∃ R J, i = ix2 R J := ⟨i 0, i 1, eq_ix2 i⟩
  obtain rfl : J = j := Fin.ext h1
  rw [Payload.pay1de_apply, proj_apply]
  refine Finset.sum_congr rfl fun k _ => ?_
  rw [point_z agg x wrel wroot b Agg X Wrel Wroot B p hagg hx hwrel hwroot hb (ix2 r k) (ix2 R k) h0 rfl, hw]

/-! ## The blocks a point reads -/

/-- The aggregated-neighbours block at point t is rows 1000·t … of its array. -/
theorem agg_block (c : Dev nD) (t : Fin cfg1.N) (y : S1000x512.Idx) (i : S10000x512.Idx)
    (h0 : (i 0).val = t.val * 1000 + (y 0).val) (h1 : (i 1).val = (y 1).val) :
    (iblk1 V c 0 t : Vec Ideal S1000x512 .bf16) y = (V c main_v58 : S10000x512.Idx → EReal) i := by
  obtain ⟨e0, e1, -⟩ := idx_facts t
  unfold iblk1
  rw [View.read_apply]
  show V c main_v58 _ = V c main_v58 _
  refine congrArg _ (funext fun a => Fin.ext ?_)
  match a with
  | ⟨0, _⟩ => show win1_0.index t (0 : Fin 2) * 1000 + 1 * (y 0).val = (i 0).val; rw [e0, h0]; omega
  | ⟨1, _⟩ => show win1_0.index t (1 : Fin 2) * 512 + 1 * (y 1).val = (i 1).val; rw [e1, h1]; omega

/-- The node-embeddings block at point t is rows 1000·t … of the first layer's result. -/
theorem x_block (c : Dev nD) (t : Fin cfg1.N) (y : S1000x512.Idx) (i : S10000x512.Idx)
    (h0 : (i 0).val = t.val * 1000 + (y 0).val) (h1 : (i 1).val = (y 1).val) :
    (iblk1 V c 1 t : Vec Ideal S1000x512 .bf16) y = (V c main_v31 : S10000x512.Idx → EReal) i := by
  obtain ⟨-, -, e0, e1, -⟩ := idx_facts t
  unfold iblk1
  rw [View.read_apply]
  show V c main_v31 _ = V c main_v31 _
  refine congrArg _ (funext fun a => Fin.ext ?_)
  match a with
  | ⟨0, _⟩ => show win1_1.index t (0 : Fin 2) * 1000 + 1 * (y 0).val = (i 0).val; rw [e0, h0]; omega
  | ⟨1, _⟩ => show win1_1.index t (1 : Fin 2) * 512 + 1 * (y 1).val = (i 1).val; rw [e1, h1]; omega

/-- The neighbours' weight block is the whole matrix at every point. -/
theorem wrel_block (c : Dev nD) (t : Fin cfg1.N) (y : S512x512.Idx) :
    (iblk1 V c 2 t : Vec Ideal S512x512 .f32) y = (V c main_arg6 : S512x512.Idx → EReal) y := by
  obtain ⟨-, -, -, -, e0, e1, -⟩ := idx_facts t
  unfold iblk1
  rw [View.read_apply]
  show V c main_arg6 _ = V c main_arg6 _
  refine congrArg _ (funext fun a => Fin.ext ?_)
  match a with
  | ⟨0, _⟩ => show win1_2.index t (0 : Fin 2) * 512 + 1 * (y 0).val = (y 0).val; rw [e0]; omega
  | ⟨1, _⟩ => show win1_2.index t (1 : Fin 2) * 512 + 1 * (y 1).val = (y 1).val; rw [e1]; omega

/-- The bias block is the whole row at every point. -/
theorem bias_block (c : Dev nD) (t : Fin cfg1.N) (y : S1x512.Idx) :
    (iblk1 V c 3 t : Vec Ideal S1x512 .f32) y = (V c main_v59 : S1x512.Idx → EReal) y := by
  obtain ⟨-, -, -, -, -, -, e0, e1, -⟩ := idx_facts t
  unfold iblk1
  rw [View.read_apply]
  show V c main_v59 _ = V c main_v59 _
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 512 + 1 * (y 1).val = (y 1).val; rw [e1]; omega

/-- The nodes' own weight block is the whole matrix at every point. -/
theorem wroot_block (c : Dev nD) (t : Fin cfg1.N) (y : S512x512.Idx) :
    (iblk1 V c 4 t : Vec Ideal S512x512 .f32) y = (V c main_arg8 : S512x512.Idx → EReal) y := by
  obtain ⟨-, -, -, -, -, -, -, -, e0, e1, -⟩ := idx_facts t
  unfold iblk1
  rw [View.read_apply]
  show V c main_arg8 _ = V c main_arg8 _
  refine congrArg _ (funext fun a => Fin.ext ?_)
  match a with
  | ⟨0, _⟩ => show win1_4.index t (0 : Fin 2) * 512 + 1 * (y 0).val = (y 0).val; rw [e0]; omega
  | ⟨1, _⟩ => show win1_4.index t (1 : Fin 2) * 512 + 1 * (y 1).val = (y 1).val; rw [e1]; omega

/-- The first projection block is the whole matrix at every point. -/
theorem wse_block (c : Dev nD) (t : Fin cfg1.N) (y : S512x64.Idx) :
    (iblk1 V c 5 t : Vec Ideal S512x64 .f32) y = (V c main_v55 : S512x64.Idx → EReal) y := by
  obtain ⟨-, -, -, -, -, -, -, -, -, -, e0, e1, -⟩ := idx_facts t
  unfold iblk1
  rw [View.read_apply]
  show V c main_v55 _ = V c main_v55 _
  refine congrArg _ (funext fun a => Fin.ext ?_)
  match a with
  | ⟨0, _⟩ => show win1_5.index t (0 : Fin 2) * 512 + 1 * (y 0).val = (y 0).val; rw [e0]; omega
  | ⟨1, _⟩ => show win1_5.index t (1 : Fin 2) * 64 + 1 * (y 1).val = (y 1).val; rw [e1]; omega

/-- The second projection block is the whole matrix at every point. -/
theorem wde_block (c : Dev nD) (t : Fin cfg1.N) (y : S512x64.Idx) :
    (iblk1 V c 6 t : Vec Ideal S512x64 .f32) y = (V c main_v56 : S512x64.Idx → EReal) y := by
  obtain ⟨-, -, -, -, -, -, -, -, -, -, -, -, e0, e1, -⟩ := idx_facts t
  unfold iblk1
  rw [View.read_apply]
  show V c main_v56 _ = V c main_v56 _
  refine congrArg _ (funext fun a => Fin.ext ?_)
  match a with
  | ⟨0, _⟩ => show win1_6.index t (0 : Fin 2) * 512 + 1 * (y 0).val = (y 0).val; rw [e0]; omega
  | ⟨1, _⟩ => show win1_6.index t (1 : Fin 2) * 64 + 1 * (y 1).val = (y 1).val; rw [e1]; omega

/-! ## The first projected result -/

set_option maxHeartbeats 400000 in
/-- Point t writes back block t of the second layer projected through the first 512×64 matrix. -/
theorem flushed_se_eq (c : Dev nD) (t : Fin cfg1.N) :
    (dat1 (F := Ideal) V c).flushed 7 t = ((cfg1.win 7).blk t).view.read (Elt Ideal)
      (proj (conv (V c main_v58) (V c main_v31) (V c main_arg6) (V c main_arg8) (V c main_v59)) (V c main_v55)) := by
  show (cfg1.win 7).cut (grid1.coords t) ((dat1 (F := Ideal) V c).after 7 t) = _
  rw [after1_7]
  unfold out1_7
  rw [View.canon_unit_zero hz]
  simp only [View.ld_unit_zero (S := S1000x512) hz, View.ld_unit_zero (S := S512x512) hz, View.ld_unit_zero (S := S1x512) hz,
    View.ld_unit_zero (S := S512x64) hz]
  funext y
  show k1_pay2 (F := Ideal) (iblk1 V c 0 t) (iblk1 V c 1 t) (iblk1 V c 2 t) (iblk1 V c 4 t) (iblk1 V c 3 t) (iblk1 V c 5 t) y
    = proj (conv (V c main_v58) (V c main_v31) (V c main_arg6) (V c main_arg8) (V c main_v59)) (V c main_v55) (((cfg1.win 7).blk t).view.emb y)
  obtain ⟨-, -, -, -, -, -, -, -, -, -, -, -, -, -, e0, e1, -⟩ := idx_facts t
  refine point_se (iblk1 V c 0 t) (iblk1 V c 1 t) (iblk1 V c 2 t) (iblk1 V c 4 t) (iblk1 V c 3 t) (iblk1 V c 5 t)
    (V c main_v58) (V c main_v31) (V c main_arg6) (V c main_arg8) (V c main_v59) (V c main_v55) t.val
    (agg_block V c t) (x_block V c t) (wrel_block V c t) (wroot_block V c t) (bias_block V c t) (wse_block V c t) y _ ?_ ?_
  · show win1_7.index t (0 : Fin 2) * 1000 + 1 * (y 0).val = t.val * 1000 + (y 0).val
    rw [e0]; omega
  · show win1_7.index t (1 : Fin 2) * 64 + 1 * (y 1).val = (y 1).val
    rw [e1]; omega

/-- An index of the array is in point t's block iff each coordinate is in the block's range on its axis. -/
theorem mem_blk_se (t : Fin cfg1.N) (i : S10000x64.Idx) :
    i ∈ ((cfg1.win 7).blk t).view.set ↔ ∀ a : Fin 2, win1_7.index t a * S1000x64.size a ≤ (i a).val ∧ (i a).val < win1_7.index t a * S1000x64.size a + S1000x64.size a := by
  show i ∈ ((View.whole main_v60_0).slice (win1_7.rect t)).set ↔ _
  rw [View.set_slice_whole, Rect.mem_set_unit]
  exact Iff.rfl

/-- Row r of the result lies in the block of point r / 1000. -/
theorem cover_se (i : S10000x64.Idx) : ∃ t : Fin cfg1.N, (cfg1.win 7).flush t = true ∧ i ∈ ((cfg1.win 7).blk t).view.set := by
  have hN : cfg1.N = 10 := N_1
  have hi0 : (i 0).val < 10000 := (i 0).isLt
  have hi1 : (i 1).val < 64 := (i 1).isLt
  have hlt : (i 0).val / 1000 < cfg1.N := by rw [hN]; omega
  obtain ⟨-, -, -, -, -, -, -, -, -, -, -, -, -, -, e0, e1, -⟩ := idx_facts ⟨(i 0).val / 1000, hlt⟩
  have e0' : win1_7.index ⟨(i 0).val / 1000, hlt⟩ (0 : Fin 2) = (i 0).val / 1000 := e0
  refine ⟨⟨(i 0).val / 1000, hlt⟩, flush1_7 _, ?_⟩
  rw [mem_blk_se]
  intro a
  match a with
  | ⟨0, _⟩ =>
    show win1_7.index ⟨(i 0).val / 1000, hlt⟩ (0 : Fin 2) * 1000 ≤ (i 0).val ∧ (i 0).val < win1_7.index ⟨(i 0).val / 1000, hlt⟩ (0 : Fin 2) * 1000 + 1000
    rw [e0']; omega
  | ⟨1, _⟩ =>
    show win1_7.index ⟨(i 0).val / 1000, hlt⟩ (1 : Fin 2) * 64 ≤ (i 1).val ∧ (i 1).val < win1_7.index ⟨(i 0).val / 1000, hlt⟩ (1 : Fin 2) * 64 + 64
    rw [e1]; omega

/-- After the region the array is the second layer of the arrays the region found, projected through the first 512×64 matrix. -/
theorem final1_se (c : Dev nD) : (dat1 (F := Ideal) V c).arrAt 7 cfg1.N
    = proj (conv (V c main_v58) (V c main_v31) (V c main_arg6) (V c main_arg8) (V c main_v59)) (V c main_v55) :=
  (dat1 (F := Ideal) V c).arrAt_eq_of_cover 7
    (proj (conv (V c main_v58) (V c main_v31) (V c main_arg6) (V c main_arg8) (V c main_v59)) (V c main_v55))
    (fun t _ => flushed_se_eq V c t) cover_se

/-! ## The second projected result -/

set_option maxHeartbeats 400000 in
/-- Point t writes back block t of the second layer projected through the second 512×64 matrix. -/
theorem flushed_de_eq (c : Dev nD) (t : Fin cfg1.N) :
    (dat1 (F := Ideal) V c).flushed 8 t = ((cfg1.win 8).blk t).view.read (Elt Ideal)
      (proj (conv (V c main_v58) (V c main_v31) (V c main_arg6) (V c main_arg8) (V c main_v59)) (V c main_v56)) := by
  show (cfg1.win 8).cut (grid1.coords t) ((dat1 (F := Ideal) V c).after 8 t) = _
  rw [after1_8]
  unfold out1_8
  rw [View.canon_unit_zero hz]
  simp only [View.ld_unit_zero (S := S1000x512) hz, View.ld_unit_zero (S := S512x512) hz, View.ld_unit_zero (S := S1x512) hz,
    View.ld_unit_zero (S := S512x64) hz]
  funext y
  show k1_pay3 (F := Ideal) (iblk1 V c 0 t) (iblk1 V c 1 t) (iblk1 V c 2 t) (iblk1 V c 4 t) (iblk1 V c 3 t) (iblk1 V c 6 t) y
    = proj (conv (V c main_v58) (V c main_v31) (V c main_arg6) (V c main_arg8) (V c main_v59)) (V c main_v56) (((cfg1.win 8).blk t).view.emb y)
  obtain ⟨-, -, -, -, -, -, -, -, -, -, -, -, -, -, -, -, e0, e1⟩ := idx_facts t
  refine point_de (iblk1 V c 0 t) (iblk1 V c 1 t) (iblk1 V c 2 t) (iblk1 V c 4 t) (iblk1 V c 3 t) (iblk1 V c 6 t)
    (V c main_v58) (V c main_v31) (V c main_arg6) (V c main_arg8) (V c main_v59) (V c main_v56) t.val
    (agg_block V c t) (x_block V c t) (wrel_block V c t) (wroot_block V c t) (bias_block V c t) (wde_block V c t) y _ ?_ ?_
  · show win1_8.index t (0 : Fin 2) * 1000 + 1 * (y 0).val = t.val * 1000 + (y 0).val
    rw [e0]; omega
  · show win1_8.index t (1 : Fin 2) * 64 + 1 * (y 1).val = (y 1).val
    rw [e1]; omega

/-- An index of the array is in point t's block iff each coordinate is in the block's range on its axis. -/
theorem mem_blk_de (t : Fin cfg1.N) (i : S10000x64.Idx) :
    i ∈ ((cfg1.win 8).blk t).view.set ↔ ∀ a : Fin 2, win1_8.index t a * S1000x64.size a ≤ (i a).val ∧ (i a).val < win1_8.index t a * S1000x64.size a + S1000x64.size a := by
  show i ∈ ((View.whole main_v60_1).slice (win1_8.rect t)).set ↔ _
  rw [View.set_slice_whole, Rect.mem_set_unit]
  exact Iff.rfl

/-- Row r of the result lies in the block of point r / 1000. -/
theorem cover_de (i : S10000x64.Idx) : ∃ t : Fin cfg1.N, (cfg1.win 8).flush t = true ∧ i ∈ ((cfg1.win 8).blk t).view.set := by
  have hN : cfg1.N = 10 := N_1
  have hi0 : (i 0).val < 10000 := (i 0).isLt
  have hi1 : (i 1).val < 64 := (i 1).isLt
  have hlt : (i 0).val / 1000 < cfg1.N := by rw [hN]; omega
  obtain ⟨-, -, -, -, -, -, -, -, -, -, -, -, -, -, -, -, e0, e1⟩ := idx_facts ⟨(i 0).val / 1000, hlt⟩
  have e0' : win1_8.index ⟨(i 0).val / 1000, hlt⟩ (0 : Fin 2) = (i 0).val / 1000 := e0
  refine ⟨⟨(i 0).val / 1000, hlt⟩, flush1_8 _, ?_⟩
  rw [mem_blk_de]
  intro a
  match a with
  | ⟨0, _⟩ =>
    show win1_8.index ⟨(i 0).val / 1000, hlt⟩ (0 : Fin 2) * 1000 ≤ (i 0).val ∧ (i 0).val < win1_8.index ⟨(i 0).val / 1000, hlt⟩ (0 : Fin 2) * 1000 + 1000
    rw [e0']; omega
  | ⟨1, _⟩ =>
    show win1_8.index ⟨(i 0).val / 1000, hlt⟩ (1 : Fin 2) * 64 ≤ (i 1).val ∧ (i 1).val < win1_8.index ⟨(i 0).val / 1000, hlt⟩ (1 : Fin 2) * 64 + 64
    rw [e1]; omega

/-- After the region the array is the second layer of the arrays the region found, projected through the second 512×64 matrix. -/
theorem final1_de (c : Dev nD) : (dat1 (F := Ideal) V c).arrAt 8 cfg1.N
    = proj (conv (V c main_v58) (V c main_v31) (V c main_arg6) (V c main_arg8) (V c main_v59)) (V c main_v56) :=
  (dat1 (F := Ideal) V c).arrAt_eq_of_cover 8
    (proj (conv (V c main_v58) (V c main_v31) (V c main_arg6) (V c main_arg8) (V c main_v59)) (V c main_v56))
    (fun t _ => flushed_de_eq V c t) cover_de

end Cert.KernelIdeal.Blocks1

end
-- ==== Proof.Payload2.lean ====
/-
  The edge decoder's block, read one edge at a time.

  One grid point of the decoder holds 16000 edges.  For edge e of the block and lane j (64 lanes) the body forms
      h[e,j] = ((se[e,j] + de[e,j]) + ew[e,0]·ww[0,j]) + bd1[0,j],
  clamps it at 0 from below, scales it by wd2[0,j], adds the 64 lanes of each edge into one number, and adds the scalar
  bd2[0,0].  Over the extended reals the two changes of float format are the identity, a column [16000,1] broadcast
  along the lanes reads its row's one entry, a row [1,64] broadcast along the edges reads its lane's one entry, and
  the lane reduction into a zero accumulator is the plain sum over the 64 lanes.  Nothing else is used: the value of
  the block at edge e is the decoder's formula, term for term.
-/
import proofs.«177604_j11828339933535_2_alg».proof.Proof.Gen.KernelIdeal.Skeleton
import proofs.«177604_j11828339933535_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload2

open Cert.KernelIdeal Idealize.ShloMosaic Idealize.ShloMosaic.ValueIdx

variable {α : Type}

/-! ## Two layout operations at an index: a vector stood up as a column, a column spread along the lanes -/

/-- An [a] vector cast to an [a, 1] column reads, at (i, u), the vector at i: both indices have row-major
    position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sum -/

/-- The sum over the 64 lanes into a zero accumulator, at edge e, is the sum of the row's 64 entries. -/
theorem laneSum_apply (src : FVec Ideal S16000x64 .f32) (h : S16000x64.Reduces [1] S16000) (hφ : FKind.Formats .f32)
    (hacc : (0x00000000#32 : BitVec 32) = FKind.add.neutral .f32 hφ) (e : Fin 16000) :
    multiReduction (F := Ideal) .add [1] S16000 src 0x00000000#32 h hφ hacc (ix1 e) = ∑ j : Fin 64, src (ix2 e j) := by
  refine (Ideal.multiReduction_add_single src 0x00000000#32 h hφ hacc (ix1 e)).trans ?_
  refine Finset.sum_congr rfl fun j _ => congrArg src ?_
  funext ax
  match ax with
  | ⟨0, _⟩ => exact Fin.ext rfl
  | ⟨1, _⟩ => exact Fin.ext rfl

/-! ## The block's value at an edge -/

/-- The decoder block at edge e: the sum over the lanes of max(h[e,j], 0)·wd2[0,j], plus bd2[0,0]. -/
theorem pay2_apply (se de : FVec Ideal S16000x64 .bf16) (ew : FVec Ideal S16000x1 .f32) (ww bd1 wd2 : FVec Ideal S1x64 .f32)
    (bd2 : FVec Ideal S1x1 .f32) (e : Fin 16000) :
    Gen.k2_pay1 (F := Ideal) se de ew ww bd1 wd2 bd2 (ix2 e 0)
      = (∑ j : Fin 64, max (((se (ix2 e j) + de (ix2 e j)) + ew (ix2 e 0) * ww (ix2 0 j)) + bd1 (ix2 0 j)) 0 * wd2 (ix2 0 j))
        + bd2 (ix2 0 0) := by
  unfold Gen.k2_pay1
  dsimp only
  show shapeCast S16000x1 _ _ (ix2 e 0) + broadcastTo S16000x1 _ _ (ix2 e 0) = _ + _
  refine congrArg₂ (· + ·) ?_ ?_
  · refine (shapeCast_a_a1_apply _ _ e 0).trans ?_
    refine (laneSum_apply _ _ _ _ e).trans ?_
    refine Finset.sum_congr rfl fun j _ => ?_
    simp only [mulf_apply, addf_apply, maximumf_apply, extf_apply, broadcast_apply, shapeCast_self]
    rw [broadcastTo_a1_ab_apply ew _ e j, broadcastTo_1b_ab_apply ww _ e j, broadcastTo_1b_ab_apply bd1 _ e j,
      broadcastTo_1b_ab_apply wd2 _ e j]
    show max _ (Ideal.ofBits .f32 0x00000000#32) * _ = _
    rw [Ideal.ofBits_zero_f32]
  · rw [shapeCast_self]
    exact broadcastTo_1b_ab_apply bd2 _ e 0

end Cert.KernelIdeal.Payload2

end
-- ==== Proof.Blocks2.lean ====
/-
  From the decoder's blocks to the whole score column.

  The decoder's grid has 10 points; point t stages rows 16000·t … 16000·t + 15999 of the two gathered-and-projected
  edge arrays and of the explicit edge-weight column, the whole of the three parameter rows and of the scalar bias, and
  writes back rows 16000·t … 16000·t + 15999 of the score column.  So what point t writes back is the block at t of one
  function of the arrays as the region finds them — the decoder's formula, edge by edge —, and since the ten row blocks
  fill the 160000 rows (row r lies in the block of point r / 16000), the score column ends holding that function.
-/
import proofs.«177604_j11828339933535_2_alg».proof.Proof.Gen.KernelIdeal.Frame
import proofs.«177604_j11828339933535_2_alg».proof.Proof.Payload2
import proofs.«177604_j11828339933535_2_alg».proof.Proof.Spec
import Idealize.ShloMosaic.Lib.Pipeline.Value

noncomputable section

namespace Cert.KernelIdeal.Blocks2

open Cert.KernelIdeal Cert.KernelIdeal.Gen Idealize.ShloMosaic Idealize.ShloMosaic.TcCoe Idealize.SL.Sem
open Idealize.ShloMosaic.ValueIdx
open Idealize.ShloMosaic.Pipeline (Dat)
open Cert.GraphSpec (decode decode_apply)

/-- The zero offsets of a whole-buffer access, as a constant function. -/
theorem zeros : (![0, 0] : Fin 2 → Nat) = fun _ => 0 := funext fun a => by fin_cases a <;> rfl

/-! ## Where each window's block sits, decided over the ten points -/

/-- At point t the three edge-indexed inputs and the output are at row block t, lane block 0; the three parameter rows
    and the scalar bias are at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-! ## One point's block is the decoder's formula on its rows -/

/-- If the staged blocks are rows 16000·t … of the edge arrays and the whole of the parameter arrays, the body's value at
    edge e of the block is the decoder's score of edge 16000·t + e. -/
theorem point_apply (x0 x1 : FVec Ideal S16000x64 .bf16) (x2 : FVec Ideal S16000x1 .f32) (x3 x4 x5 : FVec Ideal S1x64 .f32)
    (x6 : FVec Ideal S1x1 .f32)
    (se de : GraphSpec.Arr2 160000 64) (ew : GraphSpec.Arr2 160000 1) (ww bd1 wd2 : GraphSpec.Arr2 1 64) (bd2 : GraphSpec.Arr2 1 1)
    (t : Nat) (ht : t < 10)
    (h0 : ∀ (e : Fin 16000) (j : Fin 64), x0 (ix2 e j) = se (ix2 ⟨t * 16000 + e.val, by omega⟩ j))
    (h1 : ∀ (e : Fin 16000) (j : Fin 64), x1 (ix2 e j) = de (ix2 ⟨t * 16000 + e.val, by omega⟩ j))
    (h2 : ∀ e : Fin 16000, x2 (ix2 e 0) = ew (ix2 ⟨t * 16000 + e.val, by omega⟩ 0))
    (h3 : ∀ j : Fin 64, x3 (ix2 0 j) = ww (ix2 0 j))
    (h4 : ∀ j : Fin 64, x4 (ix2 0 j) = bd1 (ix2 0 j))
    (h5 : ∀ j : Fin 64, x5 (ix2 0 j) = wd2 (ix2 0 j))
    (h6 : x6 (ix2 0 0) = bd2 (ix2 0 0)) (e : Fin 16000) :
    Gen.k2_pay1 (F := Ideal) x0 x1 x2 x3 x4 x5 x6 (ix2 e 0)
      = decode se de ew ww bd1 wd2 bd2 (ix2 ⟨t * 16000 + e.val, by omega⟩ 0) := by
  rw [Payload2.pay2_apply, decode_apply, h2, h6]
  refine congrArg (· + _) (Finset.sum_congr rfl fun j _ => ?_)
  rw [h0, h1, h3, h4, h5]

/-- The same at an index y of the block and the index i of the column it is written to, known by its row. -/
theorem point_eq (x0 x1 : FVec Ideal S16000x64 .bf16) (x2 : FVec Ideal S16000x1 .f32) (x3 x4 x5 : FVec Ideal S1x64 .f32)
    (x6 : FVec Ideal S1x1 .f32)
    (se de : GraphSpec.Arr2 160000 64) (ew : GraphSpec.Arr2 160000 1) (ww bd1 wd2 : GraphSpec.Arr2 1 64) (bd2 : GraphSpec.Arr2 1 1)
    (t : Nat) (ht : t < 10)
    (h0 : ∀ (e : Fin 16000) (j : Fin 64), x0 (ix2 e j) = se (ix2 ⟨t * 16000 + e.val, by omega⟩ j))
    (h1 : ∀ (e : Fin 16000) (j : Fin 64), x1 (ix2 e j) = de (ix2 ⟨t * 16000 + e.val, by omega⟩ j))
    (h2 : ∀ e : Fin 16000, x2 (ix2 e 0) = ew (ix2 ⟨t * 16000 + e.val, by omega⟩ 0))
    (h3 : ∀ j : Fin 64, x3 (ix2 0 j) = ww (ix2 0 j))
    (h4 : ∀ j : Fin 64, x4 (ix2 0 j) = bd1 (ix2 0 j))
    (h5 : ∀ j : Fin 64, x5 (ix2 0 j) = wd2 (ix2 0 j))
    (h6 : x6 (ix2 0 0) = bd2 (ix2 0 0)) (y : S16000x1.Idx) (i : S160000x1.Idx)
    (hi : (i 0).val = t * 16000 + (y 0).val) :
    Gen.k2_pay1 (F := Ideal) x0 x1 x2 x3 x4 x5 x6 y = decode se de ew ww bd1 wd2 bd2 i := by
  obtain ⟨e, u, rfl⟩ : ∃ (e : Fin 16000) (u : Fin 1), y = ix2 e u := ⟨y 0, y 1, eq_ix2 y⟩
  obtain rfl : u = 0 := Fin.ext (by omega)
  have hi' : (i 0).val = t * 16000 + e.val := hi
  have hi1 : (i 1).val < 1 := idx2_lt1 i
  have e_i : i = ix2 ⟨t * 16000 + e.val, by omega⟩ 0 := funext fun a => by
    match a with
    | ⟨0, _⟩ => exact Fin.ext hi'
    | ⟨1, _⟩ => exact Fin.ext (by show (i 1).val = 0; omega)
  rw [e_i]
  exact point_apply x0 x1 x2 x3 x4 x5 x6 se de ew ww bd1 wd2 bd2 t ht h0 h1 h2 h3 h4 h5 h6 e

variable (V : (c : Dev nD) → (b : Ref sig .tc) → Buf (Elt Ideal) ((c : Thread nD τ).loc b))

/-- The score column as one function of the arrays the region finds: the decoder's formula. -/
abbrev G (c : Dev nD) : S160000x1.Idx → EReal :=
  decode (V c main_v69) (V c main_v78) (V c main_v79) (V c main_v57) (V c main_v80) (V c main_v81) (V c main_v82)

/-! ## What a point writes back -/

/-- Point t writes back block t of the decoder's formula. -/
theorem flushed_eq (c : Dev nD) (t : Fin cfg2.N) :
    (Gen.dat2 (F := Ideal) V c).flushed 7 t = ((cfg2.win 7).blk t).view.read (Elt Ideal) (G V c) := by
  show (cfg2.win 7).cut (grid2.coords t) ((Gen.dat2 (F := Ideal) V c).after 7 t) = _
  rw [Gen.after2_7]
  unfold Gen.out2_7
  rw [View.canon_unit_zero zeros]
  simp only [View.ld_unit_zero (S := S16000x64) zeros, View.ld_unit_zero (S := S16000x1) zeros,
    View.ld_unit_zero (S := S1x64) zeros, View.ld_unit_zero (S := S1x1) zeros]
  obtain ⟨e00, e01, e10, e11, e20, e21, e30, e31, e40, e41, e50, e51, e60, e61, e70, e71⟩ := idx_facts t
  have ht : t.val < 10 := Nat.lt_of_lt_of_eq t.isLt Gen.N_2
  funext y
  show Gen.k2_pay1 (F := Ideal) (Gen.iblk2 V c 0 t) (Gen.iblk2 V c 1 t) (Gen.iblk2 V c 2 t) (Gen.iblk2 V c 3 t)
      (Gen.iblk2 V c 4 t) (Gen.iblk2 V c 5 t) (Gen.iblk2 V c 6 t) y = G V c (((cfg2.win 7).blk t).view.emb y)
  refine point_eq (Gen.iblk2 V c 0 t) (Gen.iblk2 V c 1 t) (Gen.iblk2 V c 2 t) (Gen.iblk2 V c 3 t)
      (Gen.iblk2 V c 4 t) (Gen.iblk2 V c 5 t) (Gen.iblk2 V c 6 t)
      (V c main_v69) (V c main_v78) (V c main_v79) (V c main_v57) (V c main_v80) (V c main_v81) (V c main_v82)
      t.val ht ?_ ?_ ?_ ?_ ?_ ?_ ?_ y (((cfg2.win 7).blk t).view.emb y) ?_
  · intro e j
    show V c main_v69 (((cfg2.win 0).blk t).view.emb (ix2 e j)) = V c main_v69 (ix2 ⟨t.val * 16000 + e.val, _⟩ j)
    refine congrArg _ (funext fun a => Fin.ext ?_)
    match a with
    | ⟨0, _⟩ => show win2_0.index t (0 : Fin 2) * 16000 + 1 * e.val = t.val * 16000 + e.val; rw [e00]; omega
    | ⟨1, _⟩ => show win2_0.index t (1 : Fin 2) * 64 + 1 * j.val = j.val; rw [e01]; omega
  · intro e j
    show V c main_v78 (((cfg2.win 1).blk t).view.emb (ix2 e j)) = V c main_v78 (ix2 ⟨t.val * 16000 + e.val, _⟩ j)
    refine congrArg _ (funext fun a => Fin.ext ?_)
    match a with
    | ⟨0, _⟩ => show win2_1.index t (0 : Fin 2) * 16000 + 1 * e.val = t.val * 16000 + e.val; rw [e10]; omega
    | ⟨1, _⟩ => show win2_1.index t (1 : Fin 2) * 64 + 1 * j.val = j.val; rw [e11]; omega
  · intro e
    show V c main_v79 (((cfg2.win 2).blk t).view.emb (ix2 e 0)) = V c main_v79 (ix2 ⟨t.val * 16000 + e.val, _⟩ 0)
    refine congrArg _ (funext fun a => Fin.ext ?_)
    match a with
    | ⟨0, _⟩ => show win2_2.index t (0 : Fin 2) * 16000 + 1 * e.val = t.val * 16000 + e.val; rw [e20]; omega
    | ⟨1, _⟩ => show win2_2.index t (1 : Fin 2) * 1 + 1 * (0 : Fin 1).val = (0 : Fin 1).val; rw [e21]; omega
  · intro j
    show V c main_v57 (((cfg2.win 3).blk t).view.emb (ix2 0 j)) = V c main_v57 (ix2 0 j)
    refine congrArg _ (funext fun a => Fin.ext ?_)
    match a with
    | ⟨0, _⟩ => show win2_3.index t (0 : Fin 2) * 1 + 1 * (0 : Fin 1).val = (0 : Fin 1).val; rw [e30]; omega
    | ⟨1, _⟩ => show win2_3.index t (1 : Fin 2) * 64 + 1 * j.val = j.val; rw [e31]; omega
  · intro j
    show V c main_v80 (((cfg2.win 4).blk t).view.emb (ix2 0 j)) = V c main_v80 (ix2 0 j)
    refine congrArg _ (funext fun a => Fin.ext ?_)
    match a with
    | ⟨0, _⟩ => show win2_4.index t (0 : Fin 2) * 1 + 1 * (0 : Fin 1).val = (0 : Fin 1).val; rw [e40]; omega
    | ⟨1, _⟩ => show win2_4.index t (1 : Fin 2) * 64 + 1 * j.val = j.val; rw [e41]; omega
  · intro j
    show V c main_v81 (((cfg2.win 5).blk t).view.emb (ix2 0 j)) = V c main_v81 (ix2 0 j)
    refine congrArg _ (funext fun a => Fin.ext ?_)
    match a with
    | ⟨0, _⟩ => show win2_5.index t (0 : Fin 2) * 1 + 1 * (0 : Fin 1).val = (0 : Fin 1).val; rw [e50]; omega
    | ⟨1, _⟩ => show win2_5.index t (1 : Fin 2) * 64 + 1 * j.val = j.val; rw [e51]; omega
  · show V c main_v82 (((cfg2.win 6).blk t).view.emb (ix2 0 0)) = V c main_v82 (ix2 0 0)
    refine congrArg _ (funext fun a => Fin.ext ?_)
    match a with
    | ⟨0, _⟩ => show win2_6.index t (0 : Fin 2) * 1 + 1 * (0 : Fin 1).val = (0 : Fin 1).val; rw [e60]; omega
    | ⟨1, _⟩ => show win2_6.index t (1 : Fin 2) * 1 + 1 * (0 : Fin 1).val = (0 : Fin 1).val; rw [e61]; omega
  · show win2_7.index t (0 : Fin 2) * 16000 + 1 * (y 0).val = t.val * 16000 + (y 0).val
    rw [e70]; omega

/-! ## The ten row blocks fill the column -/

/-- An index of the column is in point t's block iff each coordinate is in the block's range on its axis. -/
theorem mem_blk (t : Fin cfg2.N) (i : S160000x1.Idx) :
    i ∈ ((cfg2.win 7).blk t).view.set ↔ ∀ a : Fin 2, win2_7.index t a * S16000x1.size a ≤ (i a).val
      ∧ (i a).val < win2_7.index t a * S16000x1.size a + S16000x1.size a := by
  show i ∈ ((View.whole main_v83).slice (win2_7.rect t)).set ↔ _
  rw [View.set_slice_whole, Rect.mem_set_unit]
  exact Iff.rfl

/-- Row r of the column lies in the block of point r / 16000, which writes back. -/
theorem covered (i : S160000x1.Idx) :
    ∃ t : Fin cfg2.N, (cfg2.win 7).flush t = true ∧ i ∈ ((cfg2.win 7).blk t).view.set := by
  have hi0 : (i 0).val < 160000 := idx2_lt0 i
  have hi1 : (i 1).val < 1 := idx2_lt1 i
  have hN : cfg2.N = 10 := Gen.N_2
  have hq : (i 0).val / 16000 < cfg2.N := by rw [hN]; omega
  obtain ⟨-, -, -, -, -, -, -, -, -, -, -, -, -, -, e70, e71⟩ := idx_facts ⟨(i 0).val / 16000, hq⟩
  have q0 : win2_7.index ⟨(i 0).val / 16000, hq⟩ (0 : Fin 2) = (i 0).val / 16000 := e70
  refine ⟨⟨(i 0).val / 16000, hq⟩, Gen.flush2_7 _, ?_⟩
  rw [mem_blk]
  intro a
  match a with
  | ⟨0, _⟩ =>
    show win2_7.index ⟨(i 0).val / 16000, hq⟩ (0 : Fin 2) * 16000 ≤ (i 0).val
      ∧ (i 0).val < win2_7.index ⟨(i 0).val / 16000, hq⟩ (0 : Fin 2) * 16000 + 16000
    rw [q0]; omega
  | ⟨1, _⟩ =>
    show win2_7.index ⟨(i 0).val / 16000, hq⟩ (1 : Fin 2) * 1 ≤ (i 1).val
      ∧ (i 1).val < win2_7.index ⟨(i 0).val / 16000, hq⟩ (1 : Fin 2) * 1 + 1
    rw [e71]; omega

/-! ## The score column after the region -/

/-- After the decoder's ten points the score column holds the decoder's formula of the arrays the region found. -/
theorem final2 (c : Dev nD) :
    (Gen.dat2 (F := Ideal) V c).arrAt 7 cfg2.N
      = decode (V c main_v69) (V c main_v78) (V c main_v79) (V c main_v57) (V c main_v80) (V c main_v81) (V c main_v82) :=
  (Gen.dat2 (F := Ideal) V c).arrAt_eq_of_cover 7 (G V c) (fun t _ => flushed_eq V c t) covered

end Cert.KernelIdeal.Blocks2

end
-- ==== Proof.LibGatherRows.lean ====
/-
  A `stablehlo.gather` of WHOLE ROWS, read at an index.

  What `x[idx]` of a two-axis array `x : [N, C]` at a column of integers `idx : [E, 1]` lowers to: offset_dims `[1]`,
  collapsed_slice_dims `[0]`, no batching axes, start_index_map `[0]`, index_vector_dim `1`, slice_sizes `[1, C]`.
  Result element `(e, j)` is the operand at row `idx[e, 0]` — read as a signed integer and clamped into `[0, N − 1]`, as
  StableHLO's gather clamps every start index — and column `j`: on operand axis 0 the operand index is the clamped start
  (the axis is collapsed, so it has no offset coordinate), on operand axis 1 it is the result's offset coordinate `j`
  (the axis is not in the start index map, so its start is 0); there is no batching coordinate on either.
-/
import Idealize.ShloMosaic.Lib.ValueIdx

noncomputable section

namespace Idealize.ShloMosaic.GatherRows

open Idealize.ShloMosaic Idealize.ShloMosaic.ValueIdx

variable {α : Type}

/-- The dimension numbers of a gather of whole rows, for an operand `[N, C]`, start indices `[E, 1]` and result
    `[E, C]`; their conditions `wf` are decided on a program's literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, j)`: the operand at row `idx[e, 0]`, read signed and clamped into `[0, N − 1]`,
    and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j)
      = x (ix2 ⟨min (idx (ix2 e 0)).toInt.toNat (N - 1), by omega⟩ j) := by
  unfold Host.gather
  congr 1
  funext a
  refine Fin.ext ?_
  show (rowsDims N E C wf).start (ix2 e j) idx a + (rowsDims N E C wf).batchCoord (ix2 e j) a
      + (rowsDims N E C wf).offCoord (ix2 e j) a = _
  rw [GatherDims.batchCoord_eq_zero _ _ _ List.not_mem_nil, Nat.add_zero]
  match a with
  | ⟨0, _⟩ =>
    -- axis 0 is collapsed: no offset coordinate; its start is the clamped start index
    show (rowsDims N E C wf).start (ix2 e j) idx (0 : Fin 2) + (rowsDims N E C wf).offCoord (ix2 e j) (0 : Fin 2) = _
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- axis 1 is not in the start index map: its start is 0, and its offset coordinate is the result's column
    show (rowsDims N E C wf).start (ix2 e j) idx (1 : Fin 2) + (rowsDims N E C wf).offCoord (ix2 e j) (1 : Fin 2) = _
    have hs : (rowsDims N E C wf).start (ix2 e j) idx (1 : Fin 2) = 0 := by
      unfold GatherDims.start
      rw [dif_neg (show (1 : Fin 2) ∉ ([0] : List (Fin 2)) by decide)]
    rw [hs, Nat.zero_add]
    rfl

end Idealize.ShloMosaic.GatherRows

end
-- ==== Proof.LibSumSplit.lean ====
/-
  A sum over `m + n + 1` consecutive indices, split as the first `m`, the next `n`, and the last one.
-/
import Mathlib.Algebra.BigOperators.Fin

open scoped BigOperators

namespace Idealize.ShloMosaic.SumSplit

/-- `Σ_{k < m+n+1} f k = (Σ_{k < m} f k + Σ_{k < n} f (m + k)) + f (m + n)`. -/
theorem sum_split3 {M : Type*} [AddCommMonoid M] (m n : Nat) (f : Fin (m + n + 1) → M) :
    ∑ k, f k = ((∑ k : Fin m, f ⟨k.val, by omega⟩) + ∑ k : Fin n, f ⟨m + k.val, by omega⟩) + f ⟨m + n, by omega⟩ := by
  rw [Fin.sum_univ_castSucc, Fin.sum_univ_add]
  rfl

end Idealize.ShloMosaic.SumSplit
-- ==== Proof.RefRow.lean ====
/-
  The decoder's input row of the reference program: the concatenation, along the feature axis, of the second layer's
  rows of an edge's two end nodes and the edge's explicit weight, read at each of its three ranges 512 + 512 + 1.
-/
import proofs.«177604_j11828339933535_2_alg».proof.Proof.Gen.ReferenceIdeal.Read
import proofs.«177604_j11828339933535_2_alg».proof.Proof.Spec
import proofs.«177604_j11828339933535_2_alg».proof.Proof.LibGatherRows

noncomputable section

namespace Cert.ReferenceIdeal.RefValue

open Cert.ReferenceIdeal Idealize.ShloMosaic Idealize.ShloMosaic.ValueIdx Idealize.ShloMosaic.GatherRows

variable (x0 : (⟨S10000x512, .f32⟩ : BufTy).Contents (Elt Ideal))
  (x1 x2 : (⟨S160000, .f32⟩ : BufTy).Contents (Elt Ideal))
  (x3 : (⟨S512x512, .f32⟩ : BufTy).Contents (Elt Ideal))
  (x4 : (⟨S512, .f32⟩ : BufTy).Contents (Elt Ideal))
  (x5 x6 : (⟨S512x512, .f32⟩ : BufTy).Contents (Elt Ideal))
  (x7 : (⟨S512, .f32⟩ : BufTy).Contents (Elt Ideal))
  (x8 : (⟨S512x512, .f32⟩ : BufTy).Contents (Elt Ideal))
  (x13 x14 : (⟨S2x160000, .i32⟩ : BufTy).Contents (Elt Ideal))

/-- The first gather read at (e, k): the second layer's embeddings at the row the first start-index column selects. -/
theorem v69_apply (e : Fin 160000) (k : Fin 512) :
    Read.val_main_v69 (F := Ideal) x0 x1 x3 x4 x5 x6 x7 x8 x13 x14 (ix2 e k)
      = Read.val_main_v60 (F := Ideal) x0 x1 x3 x4 x5 x6 x7 x8 x13
          (ix2 (Cert.GraphSpec.rowIdx (Read.val_main_v68 (F := Ideal) x14) e) k) := by
  unfold Read.val_main_v69
  generalize Read.val_main_v60 (F := Ideal) x0 x1 x3 x4 x5 x6 x7 x8 x13 = Z
  generalize Read.val_main_v68 (F := Ideal) x14 = I
  exact gather_rows_apply (by decide) _ Z I e k

/-- The second gather read at (e, k). -/
theorem v78_apply (e : Fin 160000) (k : Fin 512) :
    Read.val_main_v78 (F := Ideal) x0 x1 x3 x4 x5 x6 x7 x8 x13 x14 (ix2 e k)
      = Read.val_main_v60 (F := Ideal) x0 x1 x3 x4 x5 x6 x7 x8 x13
          (ix2 (Cert.GraphSpec.rowIdx (Read.val_main_v77 (F := Ideal) x14) e) k) := by
  unfold Read.val_main_v78
  generalize Read.val_main_v60 (F := Ideal) x0 x1 x3 x4 x5 x6 x7 x8 x13 = Z
  generalize Read.val_main_v77 (F := Ideal) x14 = I
  exact gather_rows_apply (by decide) _ Z I e k

/-- The explicit weights as a column, read at (e, 0). -/
theorem v79_apply (e : Fin 160000) : Read.val_main_v79 (F := Ideal) x2 (ix2 e 0) = x2 (ix1 e) := by
  rw [Read.val_main_v79_apply]
  exact congrArg x2 (funext fun a => Fin.ext (by match a with | ⟨0, _⟩ => rfl))

set_option maxHeartbeats 400000 in
/-- The concatenated row on its first range: columns 0 … 511 are the first gathered row. -/
theorem v80_apply_left (e : Fin 160000) (k : Fin 512) :
    Read.val_main_v80 (F := Ideal) x0 x1 x2 x3 x4 x5 x6 x7 x8 x13 x14 (ix2 e ⟨k.val, by omega⟩)
      = Read.val_main_v69 (F := Ideal) x0 x1 x3 x4 x5 x6 x7 x8 x13 x14 (ix2 e k) := by
  unfold Read.val_main_v80
  generalize Read.val_main_v69 (F := Ideal) x0 x1 x3 x4 x5 x6 x7 x8 x13 x14 = y1
  generalize Read.val_main_v78 (F := Ideal) x0 x1 x3 x4 x5 x6 x7 x8 x13 x14 = y2
  generalize Read.val_main_v79 (F := Ideal) x2 = y3
  refine concatenate_apply_piece (t := S160000x1025) 1 [⟨S160000x512, y1⟩, ⟨S160000x512, y2⟩, ⟨S160000x1, y3⟩] _ _ 0 ?_ S160000x512 y1 rfl rfl 0 rfl (ix2 e k) ?_ ?_
  · show 0 < 3; omega
  · intro b hb
    match b with
    | ⟨0, _⟩ => rfl
    | ⟨1, _⟩ => exact absurd rfl hb
  · exact Nat.zero_add _

set_option maxHeartbeats 400000 in
/-- The concatenated row on its second range: columns 512 … 1023 are the second gathered row. -/
theorem v80_apply_mid (e : Fin 160000) (k : Fin 512) :
    Read.val_main_v80 (F := Ideal) x0 x1 x2 x3 x4 x5 x6 x7 x8 x13 x14 (ix2 e ⟨512 + k.val, by omega⟩)
      = Read.val_main_v78 (F := Ideal) x0 x1 x3 x4 x5 x6 x7 x8 x13 x14 (ix2 e k) := by
  unfold Read.val_main_v80
  generalize Read.val_main_v69 (F := Ideal) x0 x1 x3 x4 x5 x6 x7 x8 x13 x14 = y1
  generalize Read.val_main_v78 (F := Ideal) x0 x1 x3 x4 x5 x6 x7 x8 x13 x14 = y2
  generalize Read.val_main_v79 (F := Ideal) x2 = y3
  refine concatenate_apply_piece (t := S160000x1025) 1 [⟨S160000x512, y1⟩, ⟨S160000x512, y2⟩, ⟨S160000x1, y3⟩] _ _ 1 ?_ S160000x512 y2 rfl rfl 512 rfl (ix2 e k) ?_ ?_
  · show 1 < 3; omega
  · intro b hb
    match b with
    | ⟨0, _⟩ => rfl
    | ⟨1, _⟩ => exact absurd rfl hb
  · rfl

set_option maxHeartbeats 400000 in
/-- The concatenated row's last column, 1024, is the explicit weight. -/
theorem v80_apply_last (e : Fin 160000) :
    Read.val_main_v80 (F := Ideal) x0 x1 x2 x3 x4 x5 x6 x7 x8 x13 x14 (ix2 e ⟨1024, by omega⟩)
      = Read.val_main_v79 (F := Ideal) x2 (ix2 e 0) := by
  unfold Read.val_main_v80
  generalize Read.val_main_v69 (F := Ideal) x0 x1 x3 x4 x5 x6 x7 x8 x13 x14 = y1
  generalize Read.val_main_v78 (F := Ideal) x0 x1 x3 x4 x5 x6 x7 x8 x13 x14 = y2
  generalize Read.val_main_v79 (F := Ideal) x2 = y3
  refine concatenate_apply_piece (t := S160000x1025) 1 [⟨S160000x512, y1⟩, ⟨S160000x512, y2⟩, ⟨S160000x1, y3⟩] _ _ 2 ?_ S160000x1 y3 rfl rfl 1024 rfl (ix2 e 0) ?_ ?_
  · show 2 < 3; omega
  · intro b hb
    match b with
    | ⟨0, _⟩ => rfl
    | ⟨1, _⟩ => exact absurd rfl hb
  · rfl

end Cert.ReferenceIdeal.RefValue

end
-- ==== Proof.RefValue.lean ====
/-
  The reference program's value, read off its operations one at a time: the two graph-convolution layers as the
  specification's combinations of the (opaque) aggregates, and the decoder's score of one edge.
-/
import proofs.«177604_j11828339933535_2_alg».proof.Proof.Gen.ReferenceIdeal.Read
import proofs.«177604_j11828339933535_2_alg».proof.Proof.Spec
import proofs.«177604_j11828339933535_2_alg».proof.Proof.LibGatherRows
import proofs.«177604_j11828339933535_2_alg».proof.Proof.LibSumSplit
import proofs.«177604_j11828339933535_2_alg».proof.Proof.RefRow

noncomputable section

namespace Cert.ReferenceIdeal.RefValue

open Cert.ReferenceIdeal Idealize.ShloMosaic Idealize.ShloMosaic.ValueIdx Idealize.ShloMosaic.GatherRows
open Idealize.ShloMosaic.SumSplit
open scoped BigOperators

variable (x0 : (⟨S10000x512, .f32⟩ : BufTy).Contents (Elt Ideal))
  (x1 x2 : (⟨S160000, .f32⟩ : BufTy).Contents (Elt Ideal))
  (x3 : (⟨S512x512, .f32⟩ : BufTy).Contents (Elt Ideal))
  (x4 : (⟨S512, .f32⟩ : BufTy).Contents (Elt Ideal))
  (x5 x6 : (⟨S512x512, .f32⟩ : BufTy).Contents (Elt Ideal))
  (x7 : (⟨S512, .f32⟩ : BufTy).Contents (Elt Ideal))
  (x8 : (⟨S512x512, .f32⟩ : BufTy).Contents (Elt Ideal))
  (x9 : (⟨S1025x64, .f32⟩ : BufTy).Contents (Elt Ideal))
  (x10 : (⟨S64, .f32⟩ : BufTy).Contents (Elt Ideal))
  (x11 : (⟨S64x1, .f32⟩ : BufTy).Contents (Elt Ideal))
  (x12 : (⟨S1, .f32⟩ : BufTy).Contents (Elt Ideal))
  (x13 x14 : (⟨S2x160000, .i32⟩ : BufTy).Contents (Elt Ideal))

/-! ## The first layer -/

/-- The composed index functions of a 512-contraction read at (r, j): the left operand at (r, k), the right at (k, j). -/
theorem lidx26 (r : Fin 10000) (j k : Fin 512) : Read.lidx_main_v26 (ix2 r j) k = ix2 r k :=
  funext fun a => Fin.ext (by match a with | ⟨0, _⟩ => rfl | ⟨1, _⟩ => rfl)
theorem ridx26 (r : Fin 10000) (j k : Fin 512) : Read.ridx_main_v26 (ix2 r j) k = ix2 k j :=
  funext fun a => Fin.ext (by match a with | ⟨0, _⟩ => rfl | ⟨1, _⟩ => rfl)
theorem lidx30 (r : Fin 10000) (j k : Fin 512) : Read.lidx_main_v30 (ix2 r j) k = ix2 r k :=
  funext fun a => Fin.ext (by match a with | ⟨0, _⟩ => rfl | ⟨1, _⟩ => rfl)
theorem ridx30 (r : Fin 10000) (j k : Fin 512) : Read.ridx_main_v30 (ix2 r j) k = ix2 k j :=
  funext fun a => Fin.ext (by match a with | ⟨0, _⟩ => rfl | ⟨1, _⟩ => rfl)

/-- The bias's two broadcasts read at (r, j): the vector at j. -/
theorem bidx28 (r : Fin 10000) (j : Fin 512) : Read.idx_main_v27 (Read.idx_main_v28 (ix2 r j)) = ix1 j :=
  funext fun a => Fin.ext (by match a with | ⟨0, _⟩ => rfl)
theorem asRow_apply {n : Nat} (v : Cert.GraphSpec.Arr1 n) (j : Fin n) : Cert.GraphSpec.asRow v (ix2 0 j) = v (ix1 j) := rfl

set_option maxHeartbeats 400000 in
/-- THE FIRST LAYER: max((agg₁·W₁rel + b₁) + x·W₁root, 0) is the specification's first layer of the aggregate; the
    bias, added before the second product, moves after it by commutativity and associativity of +. -/
theorem z1_eq : Read.val_main_v32 (F := Ideal) x0 x1 x3 x4 x5 x13
    = Cert.GraphSpec.layer1 (Read.val_main_v25 (F := Ideal) x0 x1 x13) x0 x3 x5 (Cert.GraphSpec.asRow x4) := by
  funext i
  obtain ⟨r, j, rfl⟩ : ∃ (r : Fin 10000) (j : Fin 512), i = ix2 r j := ⟨i 0, i 1, eq_ix2 i⟩
  rw [Read.val_main_v32_apply, Read.val_main_v31_apply, Read.val_main_v29_apply, Read.val_main_v26_apply,
    Read.val_main_v28_apply, Read.val_main_v27_apply, Read.val_main_v30_apply, Read.val_main_call0_v0_apply,
    Read.val_main_call0_cst_apply, Cert.GraphSpec.layer1_apply]
  generalize Read.val_main_v25 (F := Ideal) x0 x1 x13 = agg
  simp only [lidx26, ridx26, lidx30, ridx30, Ideal.addf_def, Ideal.maximumf_def, Ideal.ofBits_def, Ideal.ofBits_zero_f32]
  rw [add_right_comm, bidx28]
  rfl

/-! ## The second layer -/

theorem lidx55 (r : Fin 10000) (j k : Fin 512) : Read.lidx_main_v55 (ix2 r j) k = ix2 r k :=
  funext fun a => Fin.ext (by match a with | ⟨0, _⟩ => rfl | ⟨1, _⟩ => rfl)
theorem ridx55 (r : Fin 10000) (j k : Fin 512) : Read.ridx_main_v55 (ix2 r j) k = ix2 k j :=
  funext fun a => Fin.ext (by match a with | ⟨0, _⟩ => rfl | ⟨1, _⟩ => rfl)
theorem lidx59 (r : Fin 10000) (j k : Fin 512) : Read.lidx_main_v59 (ix2 r j) k = ix2 r k :=
  funext fun a => Fin.ext (by match a with | ⟨0, _⟩ => rfl | ⟨1, _⟩ => rfl)
theorem ridx59 (r : Fin 10000) (j k : Fin 512) : Read.ridx_main_v59 (ix2 r j) k = ix2 k j :=
  funext fun a => Fin.ext (by match a with | ⟨0, _⟩ => rfl | ⟨1, _⟩ => rfl)
theorem bidx57 (r : Fin 10000) (j : Fin 512) : Read.idx_main_v56 (Read.idx_main_v57 (ix2 r j)) = ix1 j :=
  funext fun a => Fin.ext (by match a with | ⟨0, _⟩ => rfl)

set_option maxHeartbeats 400000 in
/-- THE SECOND LAYER: (agg₂·W₂rel + b₂) + z₁·W₂root is the specification's combination of the second aggregate and
    the first layer's embeddings. -/
theorem z2_eq : Read.val_main_v60 (F := Ideal) x0 x1 x3 x4 x5 x6 x7 x8 x13
    = Cert.GraphSpec.conv (Read.val_main_v54 (F := Ideal) x0 x1 x3 x4 x5 x13)
        (Read.val_main_v32 (F := Ideal) x0 x1 x3 x4 x5 x13) x6 x8 (Cert.GraphSpec.asRow x7) := by
  funext i
  obtain ⟨r, j, rfl⟩ : ∃ (r : Fin 10000) (j : Fin 512), i = ix2 r j := ⟨i 0, i 1, eq_ix2 i⟩
  rw [Read.val_main_v60_apply, Read.val_main_v58_apply, Read.val_main_v55_apply, Read.val_main_v57_apply,
    Read.val_main_v56_apply, Read.val_main_v59_apply, Cert.GraphSpec.conv_apply]
  generalize Read.val_main_v54 (F := Ideal) x0 x1 x3 x4 x5 x13 = agg
  generalize Read.val_main_v32 (F := Ideal) x0 x1 x3 x4 x5 x13 = z
  simp only [lidx55, ridx55, lidx59, ridx59, Ideal.addf_def]
  rw [add_right_comm, bidx57]
  rfl

/-! ## The decoder -/

theorem lidx81 (e : Fin 160000) (j : Fin 64) (k : Fin 1025) : Read.lidx_main_v81 (ix2 e j) k = ix2 e k :=
  funext fun a => Fin.ext (by match a with | ⟨0, _⟩ => rfl | ⟨1, _⟩ => rfl)
theorem ridx81 (e : Fin 160000) (j : Fin 64) (k : Fin 1025) : Read.ridx_main_v81 (ix2 e j) k = ix2 k j :=
  funext fun a => Fin.ext (by match a with | ⟨0, _⟩ => rfl | ⟨1, _⟩ => rfl)
theorem bidx83 (e : Fin 160000) (j : Fin 64) : Read.idx_main_v82 (Read.idx_main_v83 (ix2 e j)) = ix1 j :=
  funext fun a => Fin.ext (by match a with | ⟨0, _⟩ => rfl)
theorem lidx86 (e : Fin 160000) (k : Fin 64) : Read.lidx_main_v86 (ix2 e 0) k = ix2 e k :=
  funext fun a => Fin.ext (by match a with | ⟨0, _⟩ => rfl | ⟨1, _⟩ => rfl)
theorem ridx86 (e : Fin 160000) (k : Fin 64) : Read.ridx_main_v86 (ix2 e 0) k = ix2 k 0 :=
  funext fun a => Fin.ext (by match a with | ⟨0, _⟩ => rfl | ⟨1, _⟩ => rfl)
theorem bidx88 (e : Fin 160000) : Read.idx_main_v87 (Read.idx_main_v88 (ix2 e 0)) = ix1 0 :=
  funext fun a => Fin.ext (by match a with | ⟨0, _⟩ => rfl)
theorem idx90 (e : Fin 160000) : Read.idx_main_v90 (ix1 e) = ix2 e 0 :=
  funext fun a => Fin.ext (by match a with | ⟨0, _⟩ => exact Nat.div_one _ | ⟨1, _⟩ => rfl)

set_option maxHeartbeats 400000 in
/-- The first decoder product at (e, j): the sum over the 1025 columns of the concatenated row splits as
    512 + 512 + 1, the two end nodes' embeddings and the explicit weight. -/
theorem v81_apply (e : Fin 160000) (j : Fin 64) :
    Read.val_main_v81 (F := Ideal) x0 x1 x2 x3 x4 x5 x6 x7 x8 x9 x13 x14 (ix2 e j)
      = ((∑ k : Fin 512, Read.val_main_v60 (F := Ideal) x0 x1 x3 x4 x5 x6 x7 x8 x13
              (ix2 (Cert.GraphSpec.rowIdx (Read.val_main_v68 (F := Ideal) x14) e) k) * x9 (ix2 ⟨k.val, by omega⟩ j))
          + ∑ k : Fin 512, Read.val_main_v60 (F := Ideal) x0 x1 x3 x4 x5 x6 x7 x8 x13
              (ix2 (Cert.GraphSpec.rowIdx (Read.val_main_v77 (F := Ideal) x14) e) k) * x9 (ix2 ⟨512 + k.val, by omega⟩ j))
        + x2 (ix1 e) * x9 (ix2 ⟨1024, by omega⟩ j) := by
  rw [Read.val_main_v81_apply]
  simp only [lidx81, ridx81]
  refine (sum_split3 512 512 (fun k : Fin 1025 =>
    Read.val_main_v80 (F := Ideal) x0 x1 x2 x3 x4 x5 x6 x7 x8 x13 x14 (ix2 e k) * x9 (ix2 k j))).trans ?_
  simp only [v80_apply_left, v80_apply_mid, v80_apply_last, v69_apply, v78_apply, v79_apply]

set_option maxHeartbeats 400000 in
/-- THE OUTPUT AT EDGE e: Σ_j max(h[e,j], 0)·Wd2[j,0] + bd2[0], with h the first decoder product plus its bias: the
    specification's edge score of the second layer's embeddings at the two clamped end-node indices. -/
theorem out_apply (e : Fin 160000) :
    Read.val_main_v90 (F := Ideal) x0 x1 x2 x3 x4 x5 x6 x7 x8 x9 x10 x11 x12 x13 x14 (ix1 e)
      = Cert.GraphSpec.edgeScore (Read.val_main_v60 (F := Ideal) x0 x1 x3 x4 x5 x6 x7 x8 x13)
          (Cert.GraphSpec.rowIdx (Read.val_main_v68 (F := Ideal) x14))
          (Cert.GraphSpec.rowIdx (Read.val_main_v77 (F := Ideal) x14)) x2 x9 x10 x11 x12 e := by
  rw [Read.val_main_v90_apply, idx90, Read.val_main_v89_apply, Read.val_main_v86_apply, Read.val_main_v88_apply,
    Read.val_main_v87_apply, bidx88]
  simp only [lidx86, ridx86, Read.val_main_v85_apply, Read.val_main_v84_apply, v81_apply, Read.val_main_v83_apply,
    Read.val_main_v82_apply, bidx83, Read.val_main_call1_v0_apply, Read.val_main_call1_cst_apply, Ideal.addf_def,
    Ideal.maximumf_def, Ideal.ofBits_def, Ideal.ofBits_zero_f32]
  rfl

end Cert.ReferenceIdeal.RefValue

end
-- ==== Proof.LibColumn.lean ====
/-
  Column layouts read at an index: the two forms a per-row weight takes on its way to a row-wise product.

  A vector `[a]` reshaped to a column `[a, 1]` keeps entry `e` at `(e, 0)`; a column `[a, 1]` broadcast along the rows of an
  `[a, b]` array repeats entry `(p, 0)` across row `p`. Both are stated over literal `Fin` coordinates, in the manner of
  the library's row forms (a vector to a row `[1, a]`, a row broadcast down the columns).
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(e, u)`, the operand at `e`, whatever the unit coordinate `u`. -/
theorem shapeCast_a_a1_apply {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.DecodeBridge.lean ====
/-
  The decoder on gathered, projected rows is the edge score.

  The decoder receives, for edge e, row g0(e) of Z·W[0:512] and row g1(e) of Z·W[512:1024] (W the 1025×64 first decoder
  matrix, the rows gathered after the projection), the edge weight as a column, row 1024 of W, and the remaining
  parameters reshaped to one-row arrays.  Read index by index: a gather of whole rows reads the operand at the clamped
  start row; a unit-stride slice reads the operand shifted by its offset; a reshape between [n], [n,1] and [1,n] keeps
  the row-major position.  With these the decoder's sum over the 64 hidden features is, term by term, the edge score's.
-/
import proofs.«177604_j11828339933535_2_alg».proof.Proof.Gen.KernelIdeal
import proofs.«177604_j11828339933535_2_alg».proof.Proof.Spec
import proofs.«177604_j11828339933535_2_alg».proof.Proof.LibGatherRows
import proofs.«177604_j11828339933535_2_alg».proof.Proof.LibColumn
import Idealize.ShloMosaic.Lib.Pipeline.Value
import Idealize.ShloMosaic.Lib.ValueIdx
import Idealize.ShloMosaic.Lib.ValueLayout

noncomputable section

namespace Cert.KernelIdeal.DecodeBridge

open Cert.KernelIdeal Cert.KernelIdeal.Gen Cert.GraphSpec
open Idealize.ShloMosaic Idealize.ShloMosaic.ValueIdx

/-! ## The layout operations read at an index -/

/-- The gather of whole rows of a 10000×64 array at a column of 160000 start indices reads, at (e, j), the operand at
    the clamped start row of edge e and column j. -/
theorem gather_read {α : Type} (x : S10000x64.Idx → α) (idx : IVec S160000x1 32) (e : Fin 160000) (j : Fin 64) :
    Host.gather gather_S10000x64_S160000x1_S160000x64_1_0_n_n_0_1_164 x idx (ix2 e j) = x (ix2 (rowIdx idx e) j) :=
  (GatherRows.gather_rows_apply (N := 10000) (E := 160000) (C := 64) (by decide) gather_S10000x64_S160000x1_S160000x64_1_0_n_n_0_1_164_wf x idx e j).trans
    (congrArg (fun r : Fin 10000 => x (ix2 r j)) (Fin.ext rfl))

/-- Rows 0 … 511 of the 1025-row matrix. -/
theorem slice_lo_read (a9 : S1025x64.Idx → EReal) (k : Fin 512) (j : Fin 64) :
    extractStridedSlice S512x64 ![0, 0] a9 slices_S1025x64_S512x64_0_0 (ix2 k j) = a9 (ix2 ⟨k.val, by omega⟩ j) :=
  extractStridedSlice_apply _ a9 _ (ix2 k j) (ix2 ⟨k.val, by omega⟩ j) fun a => by
    match a with
    | ⟨0, _⟩ => show k.val = 0 + k.val; omega
    | ⟨1, _⟩ => show j.val = 0 + j.val; omega

/-- Rows 512 … 1023 of the 1025-row matrix. -/
theorem slice_hi_read (a9 : S1025x64.Idx → EReal) (k : Fin 512) (j : Fin 64) :
    extractStridedSlice S512x64 ![512, 0] a9 slices_S1025x64_S512x64_512_0 (ix2 k j) = a9 (ix2 ⟨512 + k.val, by omega⟩ j) :=
  extractStridedSlice_apply _ a9 _ (ix2 k j) (ix2 ⟨512 + k.val, by omega⟩ j) fun a => by
    match a with
    | ⟨0, _⟩ => show 512 + k.val = 512 + k.val; rfl
    | ⟨1, _⟩ => show j.val = 0 + j.val; omega

/-- Row 1024 of the 1025-row matrix, as a one-row array. -/
theorem slice_last_read (a9 : S1025x64.Idx → EReal) (j : Fin 64) :
    extractStridedSlice S1x64 ![1024, 0] a9 slices_S1025x64_S1x64_1024_0 (ix2 0 j) = a9 (ix2 ⟨1024, by omega⟩ j) :=
  extractStridedSlice_apply _ a9 _ (ix2 0 j) (ix2 ⟨1024, by omega⟩ j) fun a => by
    match a with
    | ⟨0, _⟩ => show 1024 = 1024 + 0; rfl
    | ⟨1, _⟩ => show j.val = 0 + j.val; omega

/-- A 64×1 column read as a one-row array: entry (0, j) is the column's entry (j, 0). -/
theorem col_as_row_read (a11 : S64x1.Idx → EReal) (j : Fin 64) :
    shapeCast S1x64 a11 shapeCasts_S64x1_S1x64 (ix2 0 j) = a11 (ix2 j 0) :=
  shapeCast_apply a11 _ _ _ (by
    rw [Shape.rowMajor_val_two, Shape.rowMajor_val_two]
    show j.val * 1 + 0 = 0 * 64 + j.val
    omega)

/-! ## The decoder is the edge score -/

theorem decode_eq_edgeScore (Z : Arr2 10000 512) (idx0 idx1 : IVec S160000x1 32) (a2 : S160000.Idx → EReal)
    (a9 : S1025x64.Idx → EReal) (a10 : S64.Idx → EReal) (a11 : S64x1.Idx → EReal) (a12 : S1.Idx → EReal) (e : Fin 160000) :
    decode (Host.gather gather_S10000x64_S160000x1_S160000x64_1_0_n_n_0_1_164 (proj Z (extractStridedSlice S512x64 ![0, 0] a9 slices_S1025x64_S512x64_0_0)) idx0)
           (Host.gather gather_S10000x64_S160000x1_S160000x64_1_0_n_n_0_1_164 (proj Z (extractStridedSlice S512x64 ![512, 0] a9 slices_S1025x64_S512x64_512_0)) idx1)
           (shapeCast S160000x1 a2 shapeCasts_S160000_S160000x1) (extractStridedSlice S1x64 ![1024, 0] a9 slices_S1025x64_S1x64_1024_0)
           (shapeCast S1x64 a10 shapeCasts_S64_S1x64) (shapeCast S1x64 a11 shapeCasts_S64x1_S1x64) (shapeCast S1x1 a12 shapeCasts_S1_S1x1) (ix2 e 0)
      = edgeScore Z (rowIdx idx0) (rowIdx idx1) a2 a9 a10 a11 a12 e := by
  rw [decode_apply]
  unfold edgeScore
  rw [shapeCast_a_1a_apply]
  refine congrArg (· + a12 (ix1 0)) (Finset.sum_congr rfl fun j _ => ?_)
  rw [gather_read, gather_read, proj_apply, proj_apply, Cert.LibColumn.shapeCast_a_a1_apply, slice_last_read,
    shapeCast_a_1a_apply, col_as_row_read]
  simp only [slice_lo_read, slice_hi_read]

end Cert.KernelIdeal.DecodeBridge

end
-- ==== Proof.KernelValue.lean ====
/-
  The idealized kernel program's result is the reference's result of the same arguments.

  Region by region: the first region's output array is the reference's layer-1 embeddings (its entry contents are
  the reference's aggregate, the features, the weights and the bias row, and block by block it computes the clamped
  combination); hence the second stretch's aggregate is the reference's layer-2 aggregate, and the second region's
  two outputs are the reference's layer-2 embeddings projected through the two 512-row pieces of the first decoder
  matrix; the third region, on the rows gathered at the labelled edges' ends, computes the decoder, which is the
  reference's edge score once the 1025-term product is read as 512 + 512 + 1 terms.
-/
import proofs.«177604_j11828339933535_2_alg».proof.Proof.Gen.KernelIdeal.Frame
import proofs.«177604_j11828339933535_2_alg».proof.Proof.Gen.ReferenceIdeal.Read
import proofs.«177604_j11828339933535_2_alg».proof.Proof.Host0
import proofs.«177604_j11828339933535_2_alg».proof.Proof.Host1
import proofs.«177604_j11828339933535_2_alg».proof.Proof.Host2
import proofs.«177604_j11828339933535_2_alg».proof.Proof.Blocks0
import proofs.«177604_j11828339933535_2_alg».proof.Proof.Blocks1
import proofs.«177604_j11828339933535_2_alg».proof.Proof.Blocks2
import proofs.«177604_j11828339933535_2_alg».proof.Proof.RefValue
import proofs.«177604_j11828339933535_2_alg».proof.Proof.DecodeBridge
import proofs.«177604_j11828339933535_2_alg».proof.Proof.Spec
import Idealize.ShloMosaic.Lib.ValueLayout
import Idealize.ShloMosaic.Lib.Pipeline.Value

set_option maxRecDepth 16384

noncomputable section

namespace Cert.KernelIdeal.Result

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem

variable (m : (ℓ : Loc nD τ sig) → Buf (Elt Ideal) ℓ) (ρ : Dev nD → PrngReg) (c : Dev nD)

open Cert.GraphSpec Cert.KernelIdeal.Host

/-- A bias vector reshaped to one row is the vector read as a row. -/
theorem row_eq (v : S512.Idx → EReal) : shapeCast S1x512 v shapeCasts_S512_S1x512 = asRow v := by
  funext j
  obtain ⟨u, i, rfl⟩ : ∃ (u : Fin 1) (i : Fin 512), j = ix2 u i := ⟨j 0, j 1, eq_ix2 j⟩
  rw [shapeCast_a_1a_apply]
  rfl

/-- A column of scores reshaped to a vector reads, at e, the column's entry (e, 0). -/
theorem col_apply (v : S160000x1.Idx → EReal) (e : Fin 160000) :
    shapeCast S160000 v shapeCasts_S160000x1_S160000 (ix1 e) = v (ix2 e 0) :=
  shapeCast_apply v _ _ _ (by
    rw [Shape.rowMajor_val_two, Shape.rowMajor_val_one]
    show e.val * 1 + 0 = e.val
    omega)

/-- The first region's output array is the reference's layer-1 node embeddings. -/
theorem layer1_out : (W2 m ρ c (Proc.devRef .tc main_v31) : S10000x512.Idx → EReal)
    = Cert.ReferenceIdeal.Read.val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg13)) := by
  refine (W2_arr m ρ c 5).trans ((Cert.KernelIdeal.Blocks0.final0 (V1 m ρ) c).trans ?_)
  rw [entry0_agg m ρ c, entry0_x m ρ c, entry0_wrel m ρ c, entry0_wroot m ρ c, entry0_bias m ρ c, row_eq]
  exact (Cert.ReferenceIdeal.RefValue.z1_eq _ _ _ _ _ _).symm

/-- The second region's first output is the reference's layer-2 embeddings projected through rows 0–511 of the first
    decoder matrix. -/
theorem proj_se_out : (W4 m ρ c (Proc.devRef .tc main_v60_0) : S10000x64.Idx → EReal)
    = proj (Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)))
        (extractStridedSlice S512x64 ![0, 0] ((m ((c : Thread nD τ).loc main_arg9)) : S1025x64.Idx → EReal) slices_S1025x64_S512x64_0_0) := by
  refine (W4_arr m ρ c 7).trans ((Cert.KernelIdeal.Blocks1.final1_se (V3 m ρ) c).trans ?_)
  rw [entry1_agg m ρ c (layer1_out m ρ c), entry1_x m ρ c, layer1_out m ρ c, entry1_wrel m ρ c, entry1_wroot m ρ c,
    entry1_bias m ρ c, row_eq, entry1_wse m ρ c, ← Cert.ReferenceIdeal.RefValue.z2_eq]

/-- The second region's second output: the same through rows 512–1023. -/
theorem proj_de_out : (W4 m ρ c (Proc.devRef .tc main_v60_1) : S10000x64.Idx → EReal)
    = proj (Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)))
        (extractStridedSlice S512x64 ![512, 0] ((m ((c : Thread nD τ).loc main_arg9)) : S1025x64.Idx → EReal) slices_S1025x64_S512x64_512_0) := by
  refine (W4_arr m ρ c 8).trans ((Cert.KernelIdeal.Blocks1.final1_de (V3 m ρ) c).trans ?_)
  rw [entry1_agg m ρ c (layer1_out m ρ c), entry1_x m ρ c, layer1_out m ρ c, entry1_wrel m ρ c, entry1_wroot m ρ c,
    entry1_bias m ρ c, row_eq, entry1_wde m ρ c, ← Cert.ReferenceIdeal.RefValue.z2_eq]

/-- The third region's output column is the decoder on the gathered projected rows. -/
theorem scores_out : (W6 m ρ c (Proc.devRef .tc main_v83) : S160000x1.Idx → EReal)
    = decode (V5 m ρ c main_v69) (V5 m ρ c main_v78) (V5 m ρ c main_v79) (V5 m ρ c main_v57) (V5 m ρ c main_v80)
        (V5 m ρ c main_v81) (V5 m ρ c main_v82) :=
  (W6_arr m ρ c 7).trans (Cert.KernelIdeal.Blocks2.final2 (V5 m ρ) c)

/-- @main's result at edge e is the reference's edge score. -/
theorem result_apply (e : Fin 160000) : (W7 m ρ c (Proc.devRef .tc main_v84) : S160000.Idx → EReal) (ix1 e)
    = edgeScore (Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)))
        (rowIdx (Cert.ReferenceIdeal.Read.val_main_v68 (F := Ideal) (m ((c : Thread nD τ).loc main_arg14)))) (rowIdx (Cert.ReferenceIdeal.Read.val_main_v77 (F := Ideal) (m ((c : Thread nD τ).loc main_arg14))))
        (m ((c : Thread nD τ).loc main_arg2)) (m ((c : Thread nD τ).loc main_arg9)) (m ((c : Thread nD τ).loc main_arg10)) (m ((c : Thread nD τ).loc main_arg11)) (m ((c : Thread nD τ).loc main_arg12)) e := by
  rw [result_eq m ρ c, col_apply, scores_out m ρ c, entry2_se m ρ c, entry2_de m ρ c, entry2_ew m ρ c, entry2_ww m ρ c,
    entry2_bd1 m ρ c, entry2_wd2 m ρ c, entry2_bd2 m ρ c, proj_se_out m ρ c, proj_de_out m ρ c]
  exact Cert.KernelIdeal.DecodeBridge.decode_eq_edgeScore _ _ _ _ _ _ _ _ e

/-- @main's result array is the reference's result array of the same arguments. -/
theorem result_is_reference : (W7 m ρ c (Proc.devRef .tc main_v84) : S160000.Idx → EReal)
    = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext i
  obtain ⟨e, rfl⟩ : ∃ e : Fin 160000, i = ix1 e := ⟨i 0, eq_ix1 i⟩
  rw [result_apply m ρ c e, Cert.ReferenceIdeal.RefValue.out_apply]

end Cert.KernelIdeal.Result

end
-- ==== Proof.lean ====
/-
  A two-layer graph convolution (neighbourhood means by gather and scatter-add, two dense combinations) followed by an
  edge decoder, as a pipelined TPU program of three kernels, against its jnp reference: equal results over the
  extended reals, element by element.

  The kernel program differs from the reference in four ways, none of which changes a value at the ideal instance:
  it rounds to bf16 on the way into each matrix product (the identity there); it adds each layer's bias after the
  second product instead of before it (commutativity and associativity of +); it projects the layer-2 embeddings
  through the two 512-row pieces of the first decoder matrix at every NODE and gathers the 64-wide results at the
  labelled edges' ends, where the reference gathers the 512-wide rows and multiplies the concatenated 1025-wide row
  (a gather of rows commutes with a row-wise function, and the sum over 1025 terms is the sum of its 512 + 512 + 1
  pieces); and it computes the last 64-term product as a lane sum.  No law used needs finiteness, so the precondition
  is never opened.

  Modules: Spec (the mathematics, once); Payload01, Payload2 (each kernel body's stores read at an index); Blocks0,
  Blocks1, Blocks2 (from a region's blocks to its whole output arrays); KernelRun (the program's run with its result
  named); Host0, Host1, Host2 (the host operations around the regions as pure functions of the launch memory);
  LibGatherRows, LibSumSplit, LibColumn (general layout and summation lemmas); RefRow, RefValue (the reference's stages
  read at an index, and as the specification); DecodeBridge (the decoder on gathered projected rows is the edge score); KernelValue (the
  kernel program's result array is the reference's).  The three frames are the generated ones; the idealization
  rewrote nothing, so preservation is trivial.
-/
import proofs.«177604_j11828339933535_2_alg».proof.Defs
import proofs.«177604_j11828339933535_2_alg».proof.Proof.Gen.Kernel
import proofs.«177604_j11828339933535_2_alg».proof.Proof.Gen.Kernel.Frame
import proofs.«177604_j11828339933535_2_alg».proof.Proof.Gen.KernelIdeal
import proofs.«177604_j11828339933535_2_alg».proof.Proof.Gen.KernelIdeal.Frame
import proofs.«177604_j11828339933535_2_alg».proof.Proof.Gen.ReferenceIdeal
import proofs.«177604_j11828339933535_2_alg».proof.Proof.Gen.Pre_finite_inputs
import proofs.«177604_j11828339933535_2_alg».proof.Proof.Gen.ReferenceIdeal.Run
import proofs.«177604_j11828339933535_2_alg».proof.Proof.Gen.ReferenceIdeal.Read
import proofs.«177604_j11828339933535_2_alg».proof.Proof.KernelRun
import proofs.«177604_j11828339933535_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs run, and the kernel program's result array —
    the fold of its host stretches and regions over the launch memory — is the reference's result array. -/
theorem algebraic : Cert.algebraic_KernelIdeal_ReferenceIdeal := by
  intro m ρ m' ρ' _ hagree
  refine ⟨fun c => Cert.KernelIdeal.Gen.W7 m ρ c (Proc.devRef .tc Cert.KernelIdeal.main_v84),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  exact (Cert.KernelIdeal.Result.result_is_reference m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
